-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S10000x64 : Shape := ⟨2, ![10000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S8000x64 : Shape := ⟨2, ![8000, 64]⟩
abbrev S8000x1 : Shape := ⟨2, ![8000, 1]⟩
abbrev S100000x1 : Shape := ⟨2, ![100000, 1]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 84
  | .vmem => 35
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x1, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000, .f32⟩
  | .hbm, ⟨57, _⟩ => ⟨S100000x1, .f32⟩
  | .hbm, ⟨58, _⟩ => ⟨S1x64, .f32⟩
  | .hbm, ⟨59, _⟩ => ⟨S100000x64, .f32⟩
  | .hbm, ⟨60, _⟩ => ⟨S1x64, .f32⟩
  | .hbm, ⟨61, _⟩ => ⟨S1x64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S64, .f32⟩
  | .hbm, ⟨77, _⟩ => ⟨S64, .f32⟩
  | .hbm, ⟨78, _⟩ => ⟨S1x64, .f32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S8000x64, .f32⟩
  | .local _ .vmem, ⟨6, _⟩ => ⟨S8000x64, .f32⟩
  | .local _ .vmem, ⟨7, _⟩ => ⟨S8000x1, .f32⟩
  | .local _ .vmem, ⟨8, _⟩ => ⟨S8000x1, .f32⟩
  | .local _ .vmem, ⟨9, _⟩ => ⟨S8000x1, .f32⟩
  | .local _ .vmem, ⟨10, _⟩ => ⟨S8000x1, .f32⟩
  | .local _ .vmem, ⟨11, _⟩ => ⟨S8000x64, .f32⟩
  | .local _ .vmem, ⟨12, _⟩ => ⟨S8000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S1x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S10000x64, .f32⟩
  | .local _ .vmem, ⟨34, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42_0 : Ref sig .tc := ⟨.hbm, 59, rfl⟩
abbrev main_v42_1 : Ref sig .tc := ⟨.hbm, 60, rfl⟩
abbrev main_v42_2 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg6_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg7_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem6_0 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem7_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S1600000_S1600000x1 : S1600000.ShapeCasts S1600000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S8000x1_S8000x64 : S8000x1.Broadcasts S8000x64
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  shapeCasts_S1x64_S1x64 : S1x64.ShapeCasts S1x64
  broadcasts_S1x64_S5000x64 : S1x64.Broadcasts S5000x64
  reduces_S5000x64_S64 : S5000x64.Reduces [0] S64
  shapeCasts_S1x64_S64 : S1x64.ShapeCasts S64
  bcast_S_S64 : S_.BroadcastsInDim S64 (![] : Fin 0 → Fin S64.rank)
  shapeCasts_S10000x64_S10000x64 : S10000x64.ShapeCasts S10000x64
  broadcasts_S1x64_S10000x64 : S1x64.Broadcasts S10000x64
  dot_S10000x64_S64x64_S10000x64_1_0_0_1_n_n_wf : DotDims.WF S10000x64 S64x64 S10000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S1600000x1.size a
  hwx1_2 : ∀ i : grid1.Coords, EltTy.bits .f32 = 32 ∨ (Rect.block (s := S1600000x1) S8000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S1600000x64.size a
  hwx1_3 : ∀ i : grid1.Coords, EltTy.bits .f32 = 32 ∨ (Rect.block (s := S1600000x64) S8000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x64.size a ≤ S100000x64.size a
  hwx3_7 : ∀ i : grid3.Coords, EltTy.bits .f32 = 32 ∨ (Rect.block (s := S100000x64) S10000x64.size (cc3_transform_7 i) (hinb3_7 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v42_1) S1x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_2) S1x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v61) S10000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S1600000x1, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call0_cst : Ref sig .tc := ⟨.hbm, 93, rfl⟩
abbrev main_call0_v0 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.NamedRun.lean ====
/-
  The idealized kernel's run with its result named: every weakly fair execution of the program terminates without a
  fault, the result buffer holding the contents at the last segment boundary of the fold through the program's host
  stretches and regions, the argument arrays as launched.
-/
import proofs.«103033_j38603166057035_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run: the launch over the program's eight segments; the last thread state holds every unscoped buffer at the
    last boundary's contents, which is read against the final state — the result buffer as it stands there, each
    argument walked back to the launch memory. -/
theorem run : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.NamedRun

end
-- ==== Proof.PreReal.lean ====
/- From the precondition to "every float input entry is a real".

   The precondition is the conjunction of six `jnp.all (|x| < +∞)`, one per float argument. At the extended reals
   `|x| = max x (-x)` and the pattern `0x7F800000` denotes `⊤`; `max x (-x) < ⊤` fails at `x = ⊤` (the maximum is `⊤`)
   and at `x = ⊥` (`-⊥ = ⊤`), so it leaves `x` a real. A conjunction of `i1` words is `1` only when each is, and a
   reduction by `and` over all axes is `1` only when every element is. -/
import proofs.«103033_j38603166057035_2_alg».proof.Defs
import proofs.«103033_j38603166057035_2_alg».proof.Proof.Gen.Pre_finite_inputs
import Idealize.ShloMosaic.Lib.ReduceAll

noncomputable section

namespace Cert.PreReal

open Idealize.ShloMosaic
open Cert.Pre_finite_inputs

/-- The shape of rank `0` has one index. -/
instance : Subsingleton S_.Idx := ⟨fun a b => funext fun d => d.elim0⟩

/-- The index of the rank-`0` shape. -/
abbrev ix0 : S_.Idx := fun a => a.elim0

/-- An extended real whose absolute value compares below the pattern of `+∞` is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One `jnp.all (|a| < +∞)` that is `1`: every entry of `a` is a real. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf a) (broadcastInDim s ![] hb (constant (F := Ideal) S_ .f32 0x7F800000#32)))
        init hr hu ix0 = 1#1) :
    ∀ i, ∃ r : ℝ, a i = (r : EReal) := fun i =>
  real_of_abs_lt (a i) (Host.reduce_andi_all _ init hr hu ix0 e i)

/-- **The precondition makes every float input entry a real** (the `i32` argument is unconstrained). -/
theorem inputs_real [hP : Cert.Pre_finite_inputs.Facts] (a0 : FVec Ideal S100000x64 .f32) (a1 : IVec S2x1600000 32)
    (a2 : FVec Ideal S64x64 .f32) (a3 a4 a5 a6 : FVec Ideal S64 .f32)
    (h : Cert.Pre_finite_inputs.fn (F := Ideal) a0 a1 a2 a3 a4 a5 a6 = (fun _ => 1#1)) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal))
      ∧ (∀ i, ∃ r : ℝ, a6 i = (r : EReal)) := by
  have h0 := congrFun h ix0
  dsimp only [Cert.Pre_finite_inputs.fn, Cert.Pre_finite_inputs.fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨e0, e2⟩ := IntOp.andi_eq_one.1 h2
  exact ⟨all_real a0 _ _ _ _ e0, all_real a2 _ _ _ _ e2, all_real a3 _ _ _ _ e3, all_real a4 _ _ _ _ e4,
    all_real a5 _ _ _ _ e5, all_real a6 _ _ _ _ e6⟩

end Cert.PreReal

end
-- ==== Proof.Layout.lean ====
/-
  Two small facts about layouts used by every region: the zero offset vector, and a column broadcast read at an index.
-/
import Idealize.ShloMosaic.Lib.Pipeline.Value
import Idealize.ShloMosaic.Lib.ValueIdx
import Idealize.ShloMosaic.Lib.ValueLayout

noncomputable section

namespace Cert.Layout

open Idealize.ShloMosaic Idealize.ShloMosaic.ValueIdx

/-- The offset `(0, 0)` is the constant-zero offset. -/
theorem hz : (![0, 0] : Fin 2 → Nat) = fun _ => 0 := funext fun a => by fin_cases a <;> rfl

/-- An `[a, 1]` column broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Layout

end
-- ==== Proof.Region0.lean ====
/-
  The projection region as one function of the arrays it finds: entry `(r, j)` is the sum over the 64 shared
  positions `k` of `x (r, k) * w (k, j)`. Each of the 10 grid points multiplies 10000 consecutive rows by the whole
  weight matrix into a zero accumulator; a change of float format is the identity on extended reals.
-/
import proofs.«103033_j38603166057035_2_alg».proof.Proof.Gen.KernelIdeal.Frame
import proofs.«103033_j38603166057035_2_alg».proof.Proof.Layout
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen Cert.Layout
open Idealize.ShloMosaic.Pipeline (Dat)

/-- The matrix product, entry by entry. -/
def prod (x : S100000x64.Idx → EReal) (w : S64x64.Idx → EReal) : S100000x64.Idx → EReal :=
  fun i => ∑ k : Fin 64, x (ix2 (i 0) k) * w (ix2 k (i 1))

theorem prod_apply (x : S100000x64.Idx → EReal) (w : S64x64.Idx → EReal) (i : S100000x64.Idx) :
    prod x w i = ∑ k : Fin 64, x (ix2 (i 0) k) * w (ix2 k (i 1)) := rfl

/-- Equal factors, term by term, give equal sums of products. -/
theorem sum_mul_congr {f f' g g' : Fin 64 → EReal} (hf : ∀ k, f k = f' k) (hg : ∀ k, g k = g' k) :
    ∑ k, f k * g k = ∑ k, f' k * g' k :=
  Finset.sum_congr rfl fun k _ => by rw [hf k, hg k]

local notation "dd" => dot_S10000x64_S64x64_S10000x64_1_0_0_1_n_n

theorem lhs_row (i : S10000x64.Idx) (q : (dd).contr.Idx) : ((dd).lhsIdx i q 0).val = (i 0).val := by
  unfold DotDims.lhsIdx
  rw [dif_neg (show ¬(0 : Fin S10000x64.rank) ∈ (dd).lhsBatch by decide),
    dif_pos (show (0 : Fin S10000x64.rank) ∈ (dd).lhsNonContracting by decide)]
  rfl

theorem rhs_col (i : S10000x64.Idx) (q : (dd).contr.Idx) : ((dd).rhsIdx i q 1).val = (i 1).val := by
  unfold DotDims.rhsIdx
  rw [dif_neg (show ¬(1 : Fin S64x64.rank) ∈ (dd).rhsBatch by decide),
    dif_pos (show (1 : Fin S64x64.rank) ∈ (dd).rhsNonContracting by decide)]
  rfl

/-- The body's stored value at `(p, q)`: row `p` of the loaded row block against column `q` of the loaded weights. -/
theorem pay_at (v0 : FVec Ideal S10000x64 .f32) (v2 : FVec Ideal S64x64 .f32) (p : Fin 10000) (q : Fin 64) :
    k0_pay1 (F := Ideal) v0 v2 (ix2 p q) = ∑ k : Fin 64, v0 (ix2 p k) * v2 (ix2 k q) := by
  unfold k0_pay1
  refine (Ideal.matmul_constant_zero_apply (dd) none _ _ (ix2 p q)).trans ?_
  rw [← Equiv.sum_comp (contrEquiv1 (dd) 64 rfl rfl).symm]
  refine Finset.sum_congr rfl fun k _ => ?_
  have hk := contrEquiv1_symm_val (dd) 64 rfl rfl k
  have el : (dd).lhsIdx (ix2 p q) ((contrEquiv1 (dd) 64 rfl rfl).symm k) = ix2 p k := funext fun a => Fin.ext (by
    match a with
    | ⟨0, _⟩ => exact lhs_row _ _
    | ⟨1, _⟩ => exact ((dd).lhsIdx_val_of_single rfl _ _).trans hk)
  have er : (dd).rhsIdx (ix2 p q) ((contrEquiv1 (dd) 64 rfl rfl).symm k) = ix2 k q := funext fun a => Fin.ext (by
    match a with
    | ⟨0, _⟩ => exact ((dd).rhsIdx_val_of_single rfl _ _).trans hk
    | ⟨1, _⟩ => exact rhs_col _ _)
  rw [el, er]
  rfl

/-- The printed index maps over the grid: the row blocks move with the point, the weights stay at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the arrays as the region finds them. -/
theorem flushed_eq (c : Dev nD) (t : Fin cfg0.N) :
    (dat0 V c).flushed 2 t = ((cfg0.win 2).blk t).view.read (Elt Ideal)
      (prod (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  refine (pay_at _ _ p q).trans ?_
  refine Eq.trans ?_ (prod_apply _ _ _).symm
  refine sum_mul_congr (fun k => ?_) (fun k => ?_)
  · have h0 : ((cfg0.win 0).blk t).view.emb (ix2 p k) = ix2 ((((cfg0.win 2).blk t).view.emb (ix2 p q)) 0) k := by
      funext a; apply Fin.ext
      match a with
      | ⟨0, _⟩ => show win0_0.index t (0 : Fin 2) * 10000 + 1 * p.val = win0_2.index t (0 : Fin 2) * 10000 + 1 * p.val; omega
      | ⟨1, _⟩ => show win0_0.index t (1 : Fin 2) * 64 + 1 * k.val = k.val; omega
    exact congrArg (V c (Pipeline.arrRef spec0 0)) h0
  · have h1 : ((cfg0.win 1).blk t).view.emb (ix2 k q) = ix2 k ((((cfg0.win 2).blk t).view.emb (ix2 p q)) 1) := by
      funext a; apply Fin.ext
      match a with
      | ⟨0, _⟩ => show win0_1.index t (0 : Fin 2) * 64 + 1 * k.val = k.val; omega
      | ⟨1, _⟩ => show win0_1.index t (1 : Fin 2) * 64 + 1 * q.val = win0_2.index t (1 : Fin 2) * 64 + 1 * q.val; omega
    exact congrArg (V c (Pipeline.arrRef spec0 1)) h1

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v4).slice (win0_2.rect t)).set ↔ _
  rw [View.set_slice_whole, Rect.mem_set_unit]
  exact Iff.rfl

/-- Every row lies in the block of the point numbered by its quotient by 10000. -/
theorem cover (i : S100000x64.Idx) :
    ∃ t : Fin cfg0.N, (cfg0.win 2).flush t = true ∧ i ∈ ((cfg0.win 2).blk t).view.set := by
  have hN : cfg0.N = 10 := N_0
  have hi0 : (i 0).val < 100000 := idx2_lt0 i
  have hi1 : (i 1).val < 64 := idx2_lt1 i
  let t : Fin cfg0.N := ⟨(i 0).val / 10000, by rw [hN]; omega⟩
  obtain ⟨-, -, -, -, e4, e5⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: the product of the arrays the region found. -/
theorem arr2 (c : Dev nD) :
    (dat0 V c).arrAt 2 cfg0.N = prod (V c (Pipeline.arrRef spec0 0)) (V c (Pipeline.arrRef spec0 1)) :=
  (dat0 V c).arrAt_eq_of_cover 2 _ (fun t _ => flushed_eq V c t) cover

end Cert.KernelIdeal.Region0

end
-- ==== Proof.Glue1.lean ====
/-
  The contents of the idealized kernel's buffers at the first three segment boundaries, as the reference's own stages
  of the launch arguments: the two rows of the edge list, the projected features, and the three arrays the
  edge-scaling region finds (the gathered features and the two gathered degree coefficients as columns).
-/
import proofs.«103033_j38603166057035_2_alg».proof.Proof.Region0
import proofs.«103033_j38603166057035_2_alg».proof.Proof.Gen.ReferenceIdeal.Read
import Idealize.ShloMosaic.Lib.StableHlo.Run
import Idealize.ShloMosaic.Lib.ValueIdx
import Idealize.ShloMosaic.PureOps.Ideal
import Idealize.ShloMosaic.PureOps.Ideal.Laws

set_option maxRecDepth 16384

noncomputable section

namespace Cert.KernelIdeal.Glue

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-- The launch arguments on core `c`. -/
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)
abbrev x6 (c : Dev nD) := m ((c : Thread nD τ).loc main_arg6)

/-! ## Before the projection region: the edge list's two rows -/

set_option maxHeartbeats 4000000 in
theorem W1_v1 (c : Dev nD) : W1 m ρ c (Proc.devRef .tc main_v1) = Cert.ReferenceIdeal.Read.val_main_v1 (F := Ideal) (x1 m c) := by
  show StableHlo.after hostOps0 (W0 m ρ c) (Proc.devRef .tc main_v1) = _
  after_results_simp
  rfl

set_option maxHeartbeats 4000000 in
theorem W1_v3 (c : Dev nD) : W1 m ρ c (Proc.devRef .tc main_v3) = Cert.ReferenceIdeal.Read.val_main_v3 (F := Ideal) (x1 m c) := by
  show StableHlo.after hostOps0 (W0 m ρ c) (Proc.devRef .tc main_v3) = _
  after_results_simp
  rfl

set_option maxHeartbeats 4000000 in
theorem W1_arg0 (c : Dev nD) : W1 m ρ c (Proc.devRef .tc main_arg0) = x0 m c := by
  show StableHlo.after hostOps0 (W0 m ρ c) (Proc.devRef .tc main_arg0) = _
  after_results_simp

set_option maxHeartbeats 4000000 in
theorem W1_arg2 (c : Dev nD) : W1 m ρ c (Proc.devRef .tc main_arg2) = x2 m c := by
  show StableHlo.after hostOps0 (W0 m ρ c) (Proc.devRef .tc main_arg2) = _
  after_results_simp

/-! ## After the projection region -/

theorem W2_v1 (c : Dev nD) : W2 m ρ c (Proc.devRef .tc main_v1) = Cert.ReferenceIdeal.Read.val_main_v1 (F := Ideal) (x1 m c) :=
  (W2_of_ne m ρ c main_v1 (by decide)).trans (W1_v1 m ρ c)

theorem W2_v3 (c : Dev nD) : W2 m ρ c (Proc.devRef .tc main_v3) = Cert.ReferenceIdeal.Read.val_main_v3 (F := Ideal) (x1 m c) :=
  (W2_of_ne m ρ c main_v3 (by decide)).trans (W1_v3 m ρ c)

/-- The product the region leaves is the reference's `dot_general`, entry by entry the same sum. -/
theorem prod_eq (a : S100000x64.Idx → EReal) (w : S64x64.Idx → EReal) :
    Region0.prod a w = Cert.ReferenceIdeal.Read.val_main_v4 (F := Ideal) a w := by
  funext i
  rw [Cert.ReferenceIdeal.Read.val_main_v4_apply]
  refine Finset.sum_congr rfl fun k _ => ?_
  have el : (ix2 (i 0) k : S100000x64.Idx) = Cert.ReferenceIdeal.Read.lidx_main_v4 i k :=
    funext fun a => Fin.ext (by match a with | ⟨0, _⟩ => rfl | ⟨1, _⟩ => rfl)
  have er : (ix2 k (i 1) : S64x64.Idx) = Cert.ReferenceIdeal.Read.ridx_main_v4 i k :=
    funext fun a => Fin.ext (by match a with | ⟨0, _⟩ => rfl | ⟨1, _⟩ => rfl)
  rw [el, er]

theorem W2_v4 (c : Dev nD) :
    W2 m ρ c (Proc.devRef .tc main_v4) = Cert.ReferenceIdeal.Read.val_main_v4 (F := Ideal) (x0 m c) (x2 m c) := by
  refine (W2_arr m ρ c 2).trans ((Region0.arr2 (V1 m ρ) c).trans ?_)
  rw [← prod_eq]
  exact congrArg₂ Region0.prod (W1_arg0 m ρ c) (W1_arg2 m ρ c)

end Cert.KernelIdeal.Glue

end
-- ==== Proof.Region1.lean ====
/-
  The edge-scaling region as one function of the arrays it finds: message row `e` is the gathered feature row `e`
  times the product of the two degree coefficients of edge `e`. Each grid point handles 8000 consecutive edges, and
  the 200 points tile the 1,600,000 edges.
-/
import proofs.«103033_j38603166057035_2_alg».proof.Proof.Gen.KernelIdeal.Frame
import proofs.«103033_j38603166057035_2_alg».proof.Proof.Layout
import Idealize.ShloMosaic.Lib.Pipeline.Value
import Idealize.ShloMosaic.Lib.ValueIdx
import Idealize.ShloMosaic.Lib.ValueLayout

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen Cert.Layout
open Idealize.ShloMosaic.Pipeline (Dat)

/-- The scaled messages: entry `(e, j)` of the gathered features times the two coefficients of edge `e`. -/
def scaled (hs : S1600000x64.Idx → EReal) (ds dd : S1600000x1.Idx → EReal) : S1600000x64.Idx → EReal :=
  fun i => hs i * (ds (ix2 (i 0) (0 : Fin 1)) * dd (ix2 (i 0) (0 : Fin 1)))

/-- The body's stored value at `(p, q)`: the feature block's entry times the product of the two coefficient columns
    at row `p` (the identity reshapes drop out, the column is broadcast along the row). -/
theorem pay_at (v0 v2 : FVec Ideal S8000x1 .f32) (v5 : FVec Ideal S8000x64 .f32) (p : Fin 8000) (q : Fin 64) :
    k1_pay1 (F := Ideal) v0 v2 v5 (ix2 p q) = v5 (ix2 p q) * (v0 (ix2 p (0 : Fin 1)) * v2 (ix2 p (0 : Fin 1))) := by
  unfold k1_pay1
  simp only [shapeCast_self]
  rw [mulf_apply, broadcastTo_a1_ab_apply, mulf_apply]

/-- Equal factors give equal products of this shape. -/
theorem mul3_congr {a a' b b' c c' : EReal} (ha : a = a') (hb : b = b') (hc : c = c') :
    a * (b * c) = a' * (b' * c') := by rw [ha, hb, hc]

/-- The printed index maps over the grid: every window's block row is the point's number, its block column zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of the scaled messages of the arrays as the region finds them. -/
theorem flushed_eq (c : Dev nD) (t : Fin cfg1.N) :
    (dat1 V c).flushed 3 t = ((cfg1.win 3).blk t).view.read (Elt Ideal)
      (scaled (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S8000x64) hz, View.ld_unit_zero (S := S8000x1) hz]
  obtain ⟨e0, e1, e2, e3, e4, e5, e6, e7⟩ := idx_facts t
  funext j
  obtain ⟨p, q, rfl⟩ : ∃ (p : Fin 8000) (q : Fin 64), j = ix2 p q := ⟨j 0, j 1, eq_ix2 j⟩
  refine (pay_at _ _ _ p q).trans ?_
  have h0 : ((cfg1.win 0).blk t).view.emb (ix2 p q) = ((cfg1.win 3).blk t).view.emb (ix2 p q) := by
    funext a; apply Fin.ext
    match a with
    | ⟨0, _⟩ => show win1_0.index t (0 : Fin 2) * 8000 + 1 * p.val = win1_3.index t (0 : Fin 2) * 8000 + 1 * p.val; omega
    | ⟨1, _⟩ => show win1_0.index t (1 : Fin 2) * 64 + 1 * q.val = win1_3.index t (1 : Fin 2) * 64 + 1 * q.val; omega
  have h1 : ((cfg1.win 1).blk t).view.emb (ix2 p (0 : Fin 1))
      = ix2 ((((cfg1.win 3).blk t).view.emb (ix2 p q)) 0) (0 : Fin 1) := by
    funext a; apply Fin.ext
    match a with
    | ⟨0, _⟩ => show win1_1.index t (0 : Fin 2) * 8000 + 1 * p.val = win1_3.index t (0 : Fin 2) * 8000 + 1 * p.val; omega
    | ⟨1, _⟩ => show win1_1.index t (1 : Fin 2) * 1 + 1 * 0 = 0; omega
  have h2 : ((cfg1.win 2).blk t).view.emb (ix2 p (0 : Fin 1))
      = ix2 ((((cfg1.win 3).blk t).view.emb (ix2 p q)) 0) (0 : Fin 1) := by
    funext a; apply Fin.ext
    match a with
    | ⟨0, _⟩ => show win1_2.index t (0 : Fin 2) * 8000 + 1 * p.val = win1_3.index t (0 : Fin 2) * 8000 + 1 * p.val; omega
    | ⟨1, _⟩ => show win1_2.index t (1 : Fin 2) * 1 + 1 * 0 = 0; omega
  refine mul3_congr ?_ ?_ ?_
  · exact congrArg (V c (Pipeline.arrRef spec1 0)) h0
  · exact congrArg (V c (Pipeline.arrRef spec1 1)) h1
  · exact congrArg (V c (Pipeline.arrRef spec1 2)) h2

/-- An index of the message array is in point `t`'s block iff each coordinate is in the block's range on its axis. -/
theorem mem_blk (t : Fin cfg1.N) (i : S1600000x64.Idx) :
    i ∈ ((cfg1.win 3).blk t).view.set ↔ ∀ a : Fin 2, win1_3.index t a * S8000x64.size a ≤ (i a).val
      ∧ (i a).val < win1_3.index t a * S8000x64.size a + S8000x64.size a := by
  show i ∈ ((View.whole main_v35).slice (win1_3.rect t)).set ↔ _
  rw [View.set_slice_whole, Rect.mem_set_unit]
  exact Iff.rfl

/-- Every edge row lies in the block of the point numbered by its quotient by 8000. -/
theorem cover (i : S1600000x64.Idx) :
    ∃ t : Fin cfg1.N, (cfg1.win 3).flush t = true ∧ i ∈ ((cfg1.win 3).blk t).view.set := by
  have hN : cfg1.N = 200 := N_1
  have hi0 : (i 0).val < 1600000 := idx2_lt0 i
  have hi1 : (i 1).val < 64 := idx2_lt1 i
  let t : Fin cfg1.N := ⟨(i 0).val / 8000, by rw [hN]; omega⟩
  obtain ⟨-, -, -, -, -, -, e6, e7⟩ := idx_facts t
  have ht : t.val = (i 0).val / 8000 := rfl
  refine ⟨t, flush1_3 t, ?_⟩
  rw [mem_blk]
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 64 ≤ (i 1).val ∧ (i 1).val < win1_3.index t (1 : Fin 2) * 64 + 64; omega

/-- The message array after the region: the scaled messages of the arrays the region found. -/
theorem arr3 (c : Dev nD) :
    (dat1 V c).arrAt 3 cfg1.N
      = scaled (V c (Pipeline.arrRef spec1 0)) (V c (Pipeline.arrRef spec1 1)) (V c (Pipeline.arrRef spec1 2)) :=
  (dat1 V c).arrAt_eq_of_cover 3 _ (fun t _ => flushed_eq V c t) cover

end Cert.KernelIdeal.Region1

end
-- ==== Proof.Glue2.lean ====
/-
  The contents of the idealized kernel's buffers around the edge-scaling region and at the entry of the statistics
  region, as the reference's own stages of the launch arguments: the gathered features and the two gathered degree
  coefficients (as columns), the scaled messages, their scatter-add into the nodes, the squared degree coefficient
  as a column and the bias as a row.
-/
import proofs.«103033_j38603166057035_2_alg».proof.Proof.Glue1
import proofs.«103033_j38603166057035_2_alg».proof.Proof.Region1

set_option maxRecDepth 16384

noncomputable section

namespace Cert.KernelIdeal.Glue

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-! ## Entering the edge-scaling region -/

set_option maxHeartbeats 8000000 in
theorem W3_v32 (c : Dev nD) :
    W3 m ρ c (Proc.devRef .tc main_v32) = Cert.ReferenceIdeal.Read.val_main_v33 (F := Ideal) (x0 m c) (x1 m c) (x2 m c) := by
  show StableHlo.after hostOps1 (W2 m ρ c) (Proc.devRef .tc main_v32) = _
  after_results_simp
  rw [W2_v4, W2_v1]
  rfl

set_option maxHeartbeats 8000000 in
theorem W3_v33 (c : Dev nD) :
    W3 m ρ c (Proc.devRef .tc main_v33)
      = shapeCast S1600000x1 (Cert.ReferenceIdeal.Read.val_main_v18 (F := Ideal) (x1 m c)) shapeCasts_S1600000_S1600000x1 := by
  show StableHlo.after hostOps1 (W2 m ρ c) (Proc.devRef .tc main_v33) = _
  after_results_simp
  rw [W2_v3, W2_v1]
  rfl

set_option maxHeartbeats 8000000 in
theorem W3_v34 (c : Dev nD) :
    W3 m ρ c (Proc.devRef .tc main_v34)
      = shapeCast S1600000x1 (Cert.ReferenceIdeal.Read.val_main_v25 (F := Ideal) (x1 m c)) shapeCasts_S1600000_S1600000x1 := by
  show StableHlo.after hostOps1 (W2 m ρ c) (Proc.devRef .tc main_v34) = _
  after_results_simp
  rw [W2_v3]
  rfl

set_option maxHeartbeats 8000000 in
theorem W3_v11 (c : Dev nD) :
    W3 m ρ c (Proc.devRef .tc main_v11) = Cert.ReferenceIdeal.Read.val_main_v11 (F := Ideal) (x1 m c) := by
  show StableHlo.after hostOps1 (W2 m ρ c) (Proc.devRef .tc main_v11) = _
  after_results_simp
  rw [W2_v3]
  rfl

theorem W3_v3 (c : Dev nD) : W3 m ρ c (Proc.devRef .tc main_v3) = Cert.ReferenceIdeal.Read.val_main_v3 (F := Ideal) (x1 m c) :=
  (StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v3 m ρ c)

theorem W3_v4 (c : Dev nD) :
    W3 m ρ c (Proc.devRef .tc main_v4) = Cert.ReferenceIdeal.Read.val_main_v4 (F := Ideal) (x0 m c) (x2 m c) :=
  (StableHlo.after_of_forall_not_mem (b := Proc.devRef .tc main_v4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v4 m ρ c)

/-! ## Leaving the edge-scaling region -/

/-- The message array the region leaves: the scaled messages of the three arrays it found. -/
theorem W4_v35 (c : Dev nD) :
    W4 m ρ c (Proc.devRef .tc main_v35)
      = Region1.scaled (Cert.ReferenceIdeal.Read.val_main_v33 (F := Ideal) (x0 m c) (x1 m c) (x2 m c))
          (shapeCast S1600000x1 (Cert.ReferenceIdeal.Read.val_main_v18 (F := Ideal) (x1 m c)) shapeCasts_S1600000_S1600000x1)
          (shapeCast S1600000x1 (Cert.ReferenceIdeal.Read.val_main_v25 (F := Ideal) (x1 m c)) shapeCasts_S1600000_S1600000x1) := by
  refine (W4_arr m ρ c 3).trans ((Region1.arr3 (V3 m ρ) c).trans ?_)
  show Region1.scaled (W3 m ρ c (Proc.devRef .tc main_v32)) (W3 m ρ c (Proc.devRef .tc main_v33)) (W3 m ρ c (Proc.devRef .tc main_v34)) = _
  rw [W3_v32, W3_v33, W3_v34]

theorem W4_v3 (c : Dev nD) : W4 m ρ c (Proc.devRef .tc main_v3) = Cert.ReferenceIdeal.Read.val_main_v3 (F := Ideal) (x1 m c) :=
  (W4_of_ne m ρ c main_v3 (by decide)).trans (W3_v3 m ρ c)

theorem W4_v4 (c : Dev nD) :
    W4 m ρ c (Proc.devRef .tc main_v4) = Cert.ReferenceIdeal.Read.val_main_v4 (F := Ideal) (x0 m c) (x2 m c) :=
  (W4_of_ne m ρ c main_v4 (by decide)).trans (W3_v4 m ρ c)

theorem W4_v11 (c : Dev nD) :
    W4 m ρ c (Proc.devRef .tc main_v11) = Cert.ReferenceIdeal.Read.val_main_v11 (F := Ideal) (x1 m c) :=
  (W4_of_ne m ρ c main_v11 (by decide)).trans (W3_v11 m ρ c)

end Cert.KernelIdeal.Glue

end
-- ==== Proof.Glue3.lean ====
/-
  The launch arguments carried through the fold of the idealized kernel's segment boundaries (no host operation and
  no region writes one), and the four arrays the statistics region finds: the scatter-add of the message array into
  the nodes, the projected features, the squared degree coefficient as a column, the bias as a row.
-/
import proofs.«103033_j38603166057035_2_alg».proof.Proof.Glue2

set_option maxRecDepth 16384

noncomputable section

namespace Cert.KernelIdeal.Glue

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-! ## The arguments, boundary by boundary -/

set_option maxHeartbeats 4000000 in
theorem W1_arg3 (c : Dev nD) : W1 m ρ c (Proc.devRef .tc main_arg3) = x3 m c := by
  show StableHlo.after hostOps0 (W0 m ρ c) (Proc.devRef .tc main_arg3) = _
  after_results_simp

set_option maxHeartbeats 4000000 in
theorem W1_arg4 (c : Dev nD) : W1 m ρ c (Proc.devRef .tc main_arg4) = x4 m c := by
  show StableHlo.after hostOps0 (W0 m ρ c) (Proc.devRef .tc main_arg4) = _
  after_results_simp

set_option maxHeartbeats 4000000 in
theorem W1_arg5 (c : Dev nD) : W1 m ρ c (Proc.devRef .tc main_arg5) = x5 m c := by
  show StableHlo.after hostOps0 (W0 m ρ c) (Proc.devRef .tc main_arg5) = _
  after_results_simp

set_option maxHeartbeats 4000000 in
theorem W1_arg6 (c : Dev nD) : W1 m ρ c (Proc.devRef .tc main_arg6) = x6 m c := by
  show StableHlo.after hostOps0 (W0 m ρ c) (Proc.devRef .tc main_arg6) = _
  after_results_simp

theorem W2_arg0 (c : Dev nD) : W2 m ρ c (Proc.devRef .tc main_arg0) = x0 m c :=
  ((W2_arr m ρ c 0).trans (((dat0 (V1 m ρ) c).arrAt_in 0 rfl _).trans (A_eq0 (V1 m ρ) c 0))).trans (W1_arg0 m ρ c)

theorem W2_arg3 (c : Dev nD) : W2 m ρ c (Proc.devRef .tc main_arg3) = x3 m c :=
  (W2_of_ne m ρ c main_arg3 (by decide)).trans (W1_arg3 m ρ c)

theorem W2_arg4 (c : Dev nD) : W2 m ρ c (Proc.devRef .tc main_arg4) = x4 m c :=
  (W2_of_ne m ρ c main_arg4 (by decide)).trans (W1_arg4 m ρ c)

theorem W2_arg5 (c : Dev nD) : W2 m ρ c (Proc.devRef .tc main_arg5) = x5 m c :=
  (W2_of_ne m ρ c main_arg5 (by decide)).trans (W1_arg5 m ρ c)

theorem W2_arg6 (c : Dev nD) : W2 m ρ c (Proc.devRef .tc main_arg6) = x6 m c :=
  (W2_of_ne m ρ c main_arg6 (by decide)).trans (W1_arg6 m ρ c)

theorem W3_arg0 (c : Dev nD) : W3 m ρ c (Proc.devRef .tc main_arg0) = x0 m c :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg0 m ρ c)

theorem W4_arg0 (c : Dev nD) : W4 m ρ c (Proc.devRef .tc main_arg0) = x0 m c :=
  (W4_of_ne m ρ c main_arg0 (by decide)).trans (W3_arg0 m ρ c)

theorem W5_arg0 (c : Dev nD) : W5 m ρ c (Proc.devRef .tc main_arg0) = x0 m c :=
  (StableHlo.after_of_forall_not_mem (b := Proc.devRef .tc main_arg0) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg0 m ρ c)

theorem W6_arg0 (c : Dev nD) : W6 m ρ c (Proc.devRef .tc main_arg0) = x0 m c :=
  (W6_of_ne m ρ c main_arg0 (by decide)).trans (W5_arg0 m ρ c)

theorem W3_arg3 (c : Dev nD) : W3 m ρ c (Proc.devRef .tc main_arg3) = x3 m c :=
  (StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg3 m ρ c)

theorem W4_arg3 (c : Dev nD) : W4 m ρ c (Proc.devRef .tc main_arg3) = x3 m c :=
  (W4_of_ne m ρ c main_arg3 (by decide)).trans (W3_arg3 m ρ c)

theorem W5_arg3 (c : Dev nD) : W5 m ρ c (Proc.devRef .tc main_arg3) = x3 m c :=
  (StableHlo.after_of_forall_not_mem (b := Proc.devRef .tc main_arg3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg3 m ρ c)

theorem W6_arg3 (c : Dev nD) : W6 m ρ c (Proc.devRef .tc main_arg3) = x3 m c :=
  (W6_of_ne m ρ c main_arg3 (by decide)).trans (W5_arg3 m ρ c)

theorem W3_arg4 (c : Dev nD) : W3 m ρ c (Proc.devRef .tc main_arg4) = x4 m c :=
  (StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg4 m ρ c)

theorem W4_arg4 (c : Dev nD) : W4 m ρ c (Proc.devRef .tc main_arg4) = x4 m c :=
  (W4_of_ne m ρ c main_arg4 (by decide)).trans (W3_arg4 m ρ c)

theorem W5_arg4 (c : Dev nD) : W5 m ρ c (Proc.devRef .tc main_arg4) = x4 m c :=
  (StableHlo.after_of_forall_not_mem (b := Proc.devRef .tc main_arg4) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg4 m ρ c)

theorem W6_arg4 (c : Dev nD) : W6 m ρ c (Proc.devRef .tc main_arg4) = x4 m c :=
  (W6_of_ne m ρ c main_arg4 (by decide)).trans (W5_arg4 m ρ c)

theorem W3_arg5 (c : Dev nD) : W3 m ρ c (Proc.devRef .tc main_arg5) = x5 m c :=
  (StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg5 m ρ c)

theorem W4_arg5 (c : Dev nD) : W4 m ρ c (Proc.devRef .tc main_arg5) = x5 m c :=
  (W4_of_ne m ρ c main_arg5 (by decide)).trans (W3_arg5 m ρ c)

theorem W5_arg5 (c : Dev nD) : W5 m ρ c (Proc.devRef .tc main_arg5) = x5 m c :=
  (StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg5 m ρ c)

theorem W6_arg5 (c : Dev nD) : W6 m ρ c (Proc.devRef .tc main_arg5) = x5 m c :=
  (W6_of_ne m ρ c main_arg5 (by decide)).trans (W5_arg5 m ρ c)

theorem W3_arg6 (c : Dev nD) : W3 m ρ c (Proc.devRef .tc main_arg6) = x6 m c :=
  (StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg6 m ρ c)

theorem W4_arg6 (c : Dev nD) : W4 m ρ c (Proc.devRef .tc main_arg6) = x6 m c :=
  (W4_of_ne m ρ c main_arg6 (by decide)).trans (W3_arg6 m ρ c)

theorem W5_arg6 (c : Dev nD) : W5 m ρ c (Proc.devRef .tc main_arg6) = x6 m c :=
  (StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg6 m ρ c)

theorem W6_arg6 (c : Dev nD) : W6 m ρ c (Proc.devRef .tc main_arg6) = x6 m c :=
  (W6_of_ne m ρ c main_arg6 (by decide)).trans (W5_arg6 m ρ c)

theorem W7_arg0 (c : Dev nD) : W7 m ρ c (Proc.devRef .tc main_arg0) = x0 m c :=
  (StableHlo.after_of_forall_not_mem (b := Proc.devRef .tc main_arg0) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_arg0 m ρ c)

/-! ## Entering the statistics region -/

set_option maxHeartbeats 8000000 in
/-- The scattered messages, whatever the message array holds. -/
theorem W5_v38 (c : Dev nD) (msg : FVec Ideal S1600000x64 .f32) (hmsg : W4 m ρ c (Proc.devRef .tc main_v35) = msg) :
    W5 m ρ c (Proc.devRef .tc main_v38)
      = Host.scatterAdd (F := Ideal) (φ := .f32) Cert.ReferenceIdeal.scatter_S100000x64_S1600000x1_S1600000x64_1_0_0_1
          (Cert.ReferenceIdeal.Read.val_main_v37 (F := Ideal)) (Cert.ReferenceIdeal.Read.val_main_v38 (F := Ideal) (x1 m c)) msg := by
  show StableHlo.after hostOps2 (W4 m ρ c) (Proc.devRef .tc main_v38) = _
  after_results_simp
  rw [W4_v3, hmsg]
  rfl

set_option maxHeartbeats 8000000 in
theorem W5_v40 (c : Dev nD) :
    W5 m ρ c (Proc.devRef .tc main_v40)
      = shapeCast S100000x1 (Cert.ReferenceIdeal.Read.val_main_v40 (F := Ideal) (x1 m c)) shapeCasts_S100000_S100000x1 := by
  show StableHlo.after hostOps2 (W4 m ρ c) (Proc.devRef .tc main_v40) = _
  after_results_simp
  rw [W4_v11]
  rfl

set_option maxHeartbeats 8000000 in
theorem W5_v41 (c : Dev nD) :
    W5 m ρ c (Proc.devRef .tc main_v41) = shapeCast S1x64 (x3 m c) shapeCasts_S64_S1x64 := by
  show StableHlo.after hostOps2 (W4 m ρ c) (Proc.devRef .tc main_v41) = _
  after_results_simp
  rw [W4_arg3]
  rfl

theorem W5_v4 (c : Dev nD) :
    W5 m ρ c (Proc.devRef .tc main_v4) = Cert.ReferenceIdeal.Read.val_main_v4 (F := Ideal) (x0 m c) (x2 m c) :=
  (StableHlo.after_of_forall_not_mem (b := Proc.devRef .tc main_v4) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_v4 m ρ c)

end Cert.KernelIdeal.Glue

end
-- ==== Proof.Region2Pieces.lean ====
/-
  The statistics region's body, case by case: what each control case leaves in each output's staging buffer is the
  body's stored value of the blocks it loaded. At the first grid point the two accumulators are zeroed and then
  accumulated into, so the value read back is the zero block; at every later point they are read at their running
  contents.
-/
import proofs.«103033_j38603166057035_2_alg».proof.Proof.Gen.KernelIdeal.Frame
import proofs.«103033_j38603166057035_2_alg».proof.Proof.Layout
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.SL.Sem Idealize.ShloMosaic.ValueIdx Idealize.ShloMosaic.Tactic
open Cert.KernelIdeal Cert.KernelIdeal.Gen Cert.Layout
open Idealize.ShloMosaic.Pipeline (Dat)

variable {F : FTy → Type} [FloatOps F]

theorem out_A_4 (c : Dev nD) (i : grid2.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond2_0 i)
    (x0 x1 : Vec F S5000x64 .f32) (x2 : Vec F S5000x1 .f32) (x3 : Vec F S1x64 .f32) :
    out2_A_4 c i a1 h1 a2 h2 a3 h3 a4 h4 a5 h5 a6 h6 a7 h7 hc x0 x1 x2 x3 = k2_pay3 x0 x1 x2 x3 := by
  unfold out2_A_4
  rw [View.read_writes_eq_canon _ _ _ (cover2_A_4 c i a1 h1 a2 h2 a3 h3 a4 h4 a5 h5 a6 h6 a7 h7 hc x0 x1 x2 x3)]
  unfold kernelRun2_A
  dsimp only
  rw [View.canon_unit_zero hz]
  simp only [View.readAt_eq_ld, h1.read_unread, h2.read_unread, h3.read_unread, h4.read_unread, h6.read_unread, h7.read_unread, View.ld_unit_zero (S := S5000x64) hz, View.ld_unit_zero (S := S5000x1) hz, View.ld_unit_zero (S := S1x64) hz]

theorem out_A_5 (c : Dev nD) (i : grid2.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond2_0 i)
    (x0 x1 : Vec F S5000x64 .f32) (x2 : Vec F S5000x1 .f32) (x3 : Vec F S1x64 .f32) :
    out2_A_5 c i a1 h1 a2 h2 a3 h3 a4 h4 a5 h5 a6 h6 a7 h7 hc x0 x1 x2 x3 = k2_pay4 x0 x1 x2 x3 (k2_pay1 (F := F)) := by
  unfold out2_A_5
  rw [View.read_writes_eq_canon _ _ _ (cover2_A_5 c i a1 h1 a2 h2 a3 h3 a4 h4 a5 h5 a6 h6 a7 h7 hc x0 x1 x2 x3)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread, View.ld_unit_zero (S := S5000x64) hz, View.ld_unit_zero (S := S5000x1) hz, View.ld_unit_zero (S := S1x64) hz]

theorem out_A_6 (c : Dev nD) (i : grid2.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond2_0 i)
    (x0 x1 : Vec F S5000x64 .f32) (x2 : Vec F S5000x1 .f32) (x3 : Vec F S1x64 .f32) :
    out2_A_6 c i a1 h1 a2 h2 a3 h3 a4 h4 a5 h5 a6 h6 a7 h7 hc x0 x1 x2 x3 = k2_pay5 x0 x1 x2 x3 (k2_pay2 (F := F)) := by
  unfold out2_A_6
  rw [View.read_writes_eq_canon _ _ _ (cover2_A_6 c i a1 h1 a2 h2 a3 h3 a4 h4 a5 h5 a6 h6 a7 h7 hc x0 x1 x2 x3)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread, View.ld_unit_zero (S := S5000x64) hz, View.ld_unit_zero (S := S5000x1) hz, View.ld_unit_zero (S := S1x64) hz]

theorem out_B_4 (c : Dev nD) (i : grid2.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond2_0 i)
    (x0 x1 : Vec F S5000x64 .f32) (x2 : Vec F S5000x1 .f32) (x3 : Vec F S1x64 .f32) (xo5 xo6 : Vec F S1x64 .f32) :
    out2_B_4 c i a1 h1 a2 h2 a3 h3 a4 h4 a5 h5 a6 h6 a7 h7 hc x0 x1 x2 x3 xo5 xo6 = k2_pay3 x0 x1 x2 x3 := by
  unfold out2_B_4
  rw [View.read_writes_eq_canon _ _ _ (cover2_B_4 c i a1 h1 a2 h2 a3 h3 a4 h4 a5 h5 a6 h6 a7 h7 hc x0 x1 x2 x3 xo5 xo6)]
  unfold kernelRun2_B
  dsimp only
  rw [View.canon_unit_zero hz]
  simp only [View.readAt_eq_ld, h1.read_unread, h2.read_unread, h3.read_unread, h4.read_unread, h6.read_unread, h7.read_unread, View.ld_unit_zero (S := S5000x64) hz, View.ld_unit_zero (S := S5000x1) hz, View.ld_unit_zero (S := S1x64) hz]

theorem out_B_5 (c : Dev nD) (i : grid2.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond2_0 i)
    (x0 x1 : Vec F S5000x64 .f32) (x2 : Vec F S5000x1 .f32) (x3 : Vec F S1x64 .f32) (xo5 xo6 : Vec F S1x64 .f32) :
    out2_B_5 c i a1 h1 a2 h2 a3 h3 a4 h4 a5 h5 a6 h6 a7 h7 hc x0 x1 x2 x3 xo5 xo6 = k2_pay4 x0 x1 x2 x3 xo5 := by
  unfold out2_B_5
  rw [View.read_writes_eq_canon _ _ _ (cover2_B_5 c i a1 h1 a2 h2 a3 h3 a4 h4 a5 h5 a6 h6 a7 h7 hc x0 x1 x2 x3 xo5 xo6)]
  unfold kernelRun2_B
  dsimp only
  rw [View.canon_unit_zero hz]
  simp only [View.readAt_eq_ld, h1.read_unread, h2.read_unread, h3.read_unread, h4.read_unread, h6.read_unread, h7.read_unread, View.ld_unit_zero (S := S5000x64) hz, View.ld_unit_zero (S := S5000x1) hz, View.ld_unit_zero (S := S1x64) hz]

theorem out_B_6 (c : Dev nD) (i : grid2.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond2_0 i)
    (x0 x1 : Vec F S5000x64 .f32) (x2 : Vec F S5000x1 .f32) (x3 : Vec F S1x64 .f32) (xo5 xo6 : Vec F S1x64 .f32) :
    out2_B_6 c i a1 h1 a2 h2 a3 h3 a4 h4 a5 h5 a6 h6 a7 h7 hc x0 x1 x2 x3 xo5 xo6 = k2_pay5 x0 x1 x2 x3 xo6 := by
  unfold out2_B_6
  rw [View.read_writes_eq_canon _ _ _ (cover2_B_6 c i a1 h1 a2 h2 a3 h3 a4 h4 a5 h5 a6 h6 a7 h7 hc x0 x1 x2 x3 xo5 xo6)]
  unfold kernelRun2_B
  dsimp only
  rw [View.canon_unit_zero hz]
  simp only [View.readAt_eq_ld, h1.read_unread, h2.read_unread, h3.read_unread, h4.read_unread, h6.read_unread, h7.read_unread, View.ld_unit_zero (S := S5000x64) hz, View.ld_unit_zero (S := S5000x1) hz, View.ld_unit_zero (S := S1x64) hz]

end Cert.KernelIdeal.Region2

end
-- ==== Proof.Region2Agg.lean ====
/-
  The statistics region's first output as one function of the arrays it finds: entry `(r, j)` is
  `sc (r, j) + h (r, j) * d2 (r, 0) + b2 (0, j)` — the scattered messages, the self-loop term and the bias. Each of
  the 20 grid points handles 5000 consecutive rows, in either control case.
-/
import proofs.«103033_j38603166057035_2_alg».proof.Proof.Region2Pieces
import Idealize.ShloMosaic.Lib.ValueLayout

set_option maxRecDepth 16384

noncomputable section

namespace Cert.KernelIdeal.Region2

open Idealize.ShloMosaic Idealize.ShloMosaic.TcCoe Idealize.SL.Sem Idealize.ShloMosaic.ValueIdx
open Cert.KernelIdeal Cert.KernelIdeal.Gen Cert.Layout
open Idealize.ShloMosaic.Pipeline (Dat)

/-- The aggregated features with the self-loop term and the bias, entry by entry. -/
def agg (sc h : S100000x64.Idx → EReal) (d2 : S100000x1.Idx → EReal) (b2 : S1x64.Idx → EReal) : S100000x64.Idx → EReal :=
  fun i => sc i + h i * d2 (ix2 (i 0) (0 : Fin 1)) + b2 (ix2 (0 : Fin 1) (i 1))

theorem agg_apply (sc h : S100000x64.Idx → EReal) (d2 : S100000x1.Idx → EReal) (b2 : S1x64.Idx → EReal) (i : S100000x64.Idx) :
    agg sc h d2 b2 i = sc i + h i * d2 (ix2 (i 0) (0 : Fin 1)) + b2 (ix2 (0 : Fin 1) (i 1)) := rfl

/-- The column sums of an array. -/
def colSum (A : S100000x64.Idx → EReal) : S1x64.Idx → EReal := fun y => ∑ r : Fin 100000, A (ix2 r (y 1))

theorem colSum_apply (A : S100000x64.Idx → EReal) (y : S1x64.Idx) : colSum A y = ∑ r : Fin 100000, A (ix2 r (y 1)) := rfl

/-- The body's first stored value at `(p, q)`. -/
theorem pay3_at (v3 v5 : FVec Ideal S5000x64 .f32) (v7 : FVec Ideal S5000x1 .f32) (v12 : FVec Ideal S1x64 .f32)
    (p : Fin 5000) (q : Fin 64) :
    k2_pay3 (F := Ideal) v3 v5 v7 v12 (ix2 p q)
      = v3 (ix2 p q) + v5 (ix2 p q) * v7 (ix2 p (0 : Fin 1)) + v12 (ix2 (0 : Fin 1) q) := by
  unfold k2_pay3
  simp only [shapeCast_self]
  rw [addf_apply, addf_apply, mulf_apply, broadcastTo_a1_ab_apply, broadcastTo_1b_ab_apply]

/-- Equal ingredients give equal entries. -/
theorem entry_congr {s s' h h' d d' b b' : EReal} (hs : s = s') (hh : h = h') (hd : d = d') (hb : b = b') :
    s + h * d + b = s' + h' * d' + b' := by rw [hs, hh, hd, hb]

/-- The printed index maps over the grid: the three row-block inputs and the first output move with the point; the
    bias row and the two accumulators stay at block `(0, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

variable (V : (c : Dev nD) → (b : Ref sig .tc) → Buf (Elt Ideal) ((c : Thread nD τ).loc b))

/-- The arrays' aggregate, as the region finds them. -/
abbrev aggV (c : Dev nD) : S100000x64.Idx → EReal :=
  agg (V c (Pipeline.arrRef spec2 0)) (V c (Pipeline.arrRef spec2 1)) (V c (Pipeline.arrRef spec2 2)) (V c (Pipeline.arrRef spec2 3))

/-- The body's first stored value at point `t`, entry `(p, q)`, is the aggregate at row `5000 t + p`. -/
theorem pay3_blk (c : Dev nD) (t : Fin cfg2.N) (p : Fin 5000) (q : Fin 64) :
    k2_pay3 (F := Ideal) (iblk2 V c 0 t) (iblk2 V c 1 t) (iblk2 V c 2 t) (iblk2 V c 3 t) (ix2 p q)
      = aggV V c (ix2 (⟨t.val * 5000 + p.val, by have := t.isLt; have hN : cfg2.N = 20 := N_2; omega⟩ : Fin 100000) q) := by
  obtain ⟨e0, e1, e2, e3, e4, e5, e6, e7, -⟩ := idx_facts t
  refine (pay3_at _ _ _ _ p q).trans ?_
  refine Eq.trans ?_ (agg_apply _ _ _ _ _).symm
  refine entry_congr ?_ ?_ ?_ ?_
  · refine congrArg (V c (Pipeline.arrRef spec2 0)) ?_
    funext a; apply Fin.ext
    match a with
    | ⟨0, _⟩ => show win2_0.index t (0 : Fin 2) * 5000 + 1 * p.val = t.val * 5000 + p.val; omega
    | ⟨1, _⟩ => show win2_0.index t (1 : Fin 2) * 64 + 1 * q.val = q.val; omega
  · refine congrArg (V c (Pipeline.arrRef spec2 1)) ?_
    funext a; apply Fin.ext
    match a with
    | ⟨0, _⟩ => show win2_1.index t (0 : Fin 2) * 5000 + 1 * p.val = t.val * 5000 + p.val; omega
    | ⟨1, _⟩ => show win2_1.index t (1 : Fin 2) * 64 + 1 * q.val = q.val; omega
  · refine congrArg (V c (Pipeline.arrRef spec2 2)) ?_
    funext a; apply Fin.ext
    match a with
    | ⟨0, _⟩ => show win2_2.index t (0 : Fin 2) * 5000 + 1 * p.val = t.val * 5000 + p.val; omega
    | ⟨1, _⟩ => show win2_2.index t (1 : Fin 2) * 1 + 1 * 0 = 0; omega
  · refine congrArg (V c (Pipeline.arrRef spec2 3)) ?_
    funext a; apply Fin.ext
    match a with
    | ⟨0, _⟩ => show win2_3.index t (0 : Fin 2) * 1 + 1 * 0 = 0; omega
    | ⟨1, _⟩ => show win2_3.index t (1 : Fin 2) * 64 + 1 * q.val = q.val; omega

set_option maxHeartbeats 1000000 in
/-- In either control case the first output's staging buffer after point `t` holds the body's first stored value. -/
theorem after4 (c : Dev nD) (t : Fin cfg2.N) :
    (dat2 V c).after 4 t = k2_pay3 (F := Ideal) (iblk2 V c 0 t) (iblk2 V c 1 t) (iblk2 V c 2 t) (iblk2 V c 3 t) := by
  rw [after2_4]
  by_cases h0 : t.val % 20 = 0
  · rw [outsAt2_A V c t h0]
    dsimp only
    exact out_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0)
      (iblk2 V c 0 t) (iblk2 V c 1 t) (iblk2 V c 2 t) (iblk2 V c 3 t)
  · rw [outsAt2_B V c t h0]
    dsimp only
    exact out_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h))
      (iblk2 V c 0 t) (iblk2 V c 1 t) (iblk2 V c 2 t) (iblk2 V c 3 t)
      (outsAt2 V c (t.val - 1) (Nat.lt_of_le_of_lt (Nat.sub_le _ _) t.isLt)).2.1
      (outsAt2 V c (t.val - 1) (Nat.lt_of_le_of_lt (Nat.sub_le _ _) t.isLt)).2.2

/-- What point `t` writes back is block `t` of the aggregate. -/
theorem flushed4_eq (c : Dev nD) (t : Fin cfg2.N) :
    (dat2 V c).flushed 4 t = ((cfg2.win 4).blk t).view.read (Elt Ideal) (aggV V c) := by
  show (cfg2.win 4).cut (grid2.coords t) ((dat2 V c).after 4 t) = _
  rw [after4]
  obtain ⟨-, -, -, -, -, -, -, -, e8, e9, -⟩ := idx_facts t
  funext j
  obtain ⟨p, q, rfl⟩ : ∃ (p : Fin 5000) (q : Fin 64), j = ix2 p q := ⟨j 0, j 1, eq_ix2 j⟩
  refine (pay3_blk V c t p q).trans ?_
  refine congrArg (aggV V c) ?_
  funext a; apply Fin.ext
  match a with
  | ⟨0, _⟩ => show t.val * 5000 + p.val = win2_4.index t (0 : Fin 2) * 5000 + 1 * p.val; omega
  | ⟨1, _⟩ => show q.val = win2_4.index t (1 : Fin 2) * 64 + 1 * q.val; omega

/-- An index of the first output array is in point `t`'s block iff each coordinate is in the block's range. -/
theorem mem_blk4 (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v42_0).slice (win2_4.rect t)).set ↔ _
  rw [View.set_slice_whole, Rect.mem_set_unit]
  exact Iff.rfl

/-- Every row lies in the block of the point numbered by its quotient by 5000. -/
theorem cover4 (i : S100000x64.Idx) :
    ∃ t : Fin cfg2.N, (cfg2.win 4).flush t = true ∧ i ∈ ((cfg2.win 4).blk t).view.set := by
  have hN : cfg2.N = 20 := N_2
  have hi0 : (i 0).val < 100000 := idx2_lt0 i
  have hi1 : (i 1).val < 64 := idx2_lt1 i
  let t : Fin cfg2.N := ⟨(i 0).val / 5000, by rw [hN]; omega⟩
  obtain ⟨-, -, -, -, -, -, -, -, e8, e9, -⟩ := idx_facts t
  have ht : t.val = (i 0).val / 5000 := rfl
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The first output array after the region: the aggregate of the arrays the region found. -/
theorem arr4 (c : Dev nD) : (dat2 V c).arrAt 4 cfg2.N = aggV V c :=
  (dat2 V c).arrAt_eq_of_cover 4 _ (fun t _ => flushed4_eq V c t) cover4

end Cert.KernelIdeal.Region2

end
-- ==== Proof.Region3.lean ====
/-
  The normalisation region as one function of the arrays it finds: entry `(r, j)` is
  `max (g j * (A (r, j) - al j * mu j) * rsqrt (var j + eps) + be j) 0 + x (r, j)`, the five row vectors read at column
  `j`. Each of the 10 grid points handles 10000 consecutive rows.
-/
import proofs.«103033_j38603166057035_2_alg».proof.Proof.Gen.KernelIdeal.Frame
import proofs.«103033_j38603166057035_2_alg».proof.Proof.Layout
import Idealize.ShloMosaic.Lib.Pipeline.Value
import Idealize.ShloMosaic.Lib.ValueIdx
import Idealize.ShloMosaic.Lib.ValueLayout

set_option maxRecDepth 16384

noncomputable section

namespace Cert.KernelIdeal.Region3

open Idealize.ShloMosaic Idealize.ShloMosaic.TcCoe Idealize.SL.Sem Idealize.ShloMosaic.ValueIdx
open Cert.KernelIdeal Cert.KernelIdeal.Gen Cert.Layout
open Idealize.ShloMosaic.Pipeline (Dat)

/-- The normalised, rectified, residual-added array, entry by entry. -/
def finalize (A x : S100000x64.Idx → EReal) (g be al mu var : S1x64.Idx → EReal) : S100000x64.Idx → EReal :=
  fun i => max (g (ix2 (0 : Fin 1) (i 1)) * (A i - al (ix2 (0 : Fin 1) (i 1)) * mu (ix2 (0 : Fin 1) (i 1)))
      * Ideal.rsqrt (var (ix2 (0 : Fin 1) (i 1)) + Ideal.ofBits .f32 0x3727C5AC#32)
      + be (ix2 (0 : Fin 1) (i 1))) (Ideal.ofBits .f32 0x00000000#32) + x i

/-- The body's stored value at `(p, q)` (the identity reshapes drop out, each row vector is broadcast down the rows). -/
theorem pay_at (v0 v26 : FVec Ideal S10000x64 .f32) (v2 v4 v9 v14 v20 : FVec Ideal S1x64 .f32) (p : Fin 10000) (q : Fin 64) :
    k3_pay1 (F := Ideal) v0 v2 v4 v9 v14 v20 v26 (ix2 p q)
      = max (v14 (ix2 (0 : Fin 1) q) * (v0 (ix2 p q) - v2 (ix2 (0 : Fin 1) q) * v4 (ix2 (0 : Fin 1) q))
          * Ideal.rsqrt (v9 (ix2 (0 : Fin 1) q) + Ideal.ofBits .f32 0x3727C5AC#32)
          + v20 (ix2 (0 : Fin 1) q)) (Ideal.ofBits .f32 0x00000000#32) + v26 (ix2 p q) := by
  unfold k3_pay1
  simp only [shapeCast_self, addf_apply, maximumf_apply, mulf_apply, subf_apply, broadcastTo_1b_ab_apply, broadcast_apply]
  rfl

/-- Equal ingredients give equal normalised entries. -/
theorem entry_congr {g g' A A' al al' mu mu' var var' be be' x x' : EReal} (e z : EReal)
    (hg : g = g') (hA : A = A') (hal : al = al') (hmu : mu = mu') (hvar : var = var') (hbe : be = be') (hx : x = x') :
    max (g * (A - al * mu) * Ideal.rsqrt (var + e) + be) z + x
      = max (g' * (A' - al' * mu') * Ideal.rsqrt (var' + e) + be') z + x' := by
  rw [hg, hA, hal, hmu, hvar, hbe, hx]

/-- The printed index maps over the grid: the two row-block windows and the output move with the point, the five row
    vectors stay at block `(0, 0)`. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

variable (V : (c : Dev nD) → (b : Ref sig .tc) → Buf (Elt Ideal) ((c : Thread nD τ).loc b))

set_option maxHeartbeats 2000000 in
/-- What point `t` writes back is block `t` of the normalised array of the arrays as the region finds them. -/
theorem flushed_eq (c : Dev nD) (t : Fin cfg3.N) :
    (dat3 V c).flushed 7 t = ((cfg3.win 7).blk t).view.read (Elt Ideal)
      (finalize (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6))) := by
  show (cfg3.win 7).cut (grid3.coords t) ((dat3 V c).after 7 t) = _
  rw [after3_7]
  unfold out3_7
  rw [View.canon_unit_zero hz]
  simp only [View.ld_unit_zero (S := S10000x64) hz, View.ld_unit_zero (S := S1x64) hz]
  obtain ⟨a0, a1, b0, b1, c0, c1, d0, d1, f0, f1, g0, g1, k0, k1, o0, o1⟩ := idx_facts t
  funext j
  obtain ⟨p, q, rfl⟩ : ∃ (p : Fin 10000) (q : Fin 64), j = ix2 p q := ⟨j 0, j 1, eq_ix2 j⟩
  refine (pay_at _ _ _ _ _ _ _ p q).trans ?_
  have h0 : ((cfg3.win 0).blk t).view.emb (ix2 p q) = ((cfg3.win 7).blk t).view.emb (ix2 p q) := by
    funext a; apply Fin.ext
    match a with
    | ⟨0, _⟩ => show win3_0.index t (0 : Fin 2) * 10000 + 1 * p.val = win3_7.index t (0 : Fin 2) * 10000 + 1 * p.val; omega
    | ⟨1, _⟩ => show win3_0.index t (1 : Fin 2) * 64 + 1 * q.val = win3_7.index t (1 : Fin 2) * 64 + 1 * q.val; omega
  have h1 : ((cfg3.win 1).blk t).view.emb (ix2 p q) = ((cfg3.win 7).blk t).view.emb (ix2 p q) := by
    funext a; apply Fin.ext
    match a with
    | ⟨0, _⟩ => show win3_1.index t (0 : Fin 2) * 10000 + 1 * p.val = win3_7.index t (0 : Fin 2) * 10000 + 1 * p.val; omega
    | ⟨1, _⟩ => show win3_1.index t (1 : Fin 2) * 64 + 1 * q.val = win3_7.index t (1 : Fin 2) * 64 + 1 * q.val; omega
  have h2 : ((cfg3.win 2).blk t).view.emb (ix2 (0 : Fin 1) q) = ix2 (0 : Fin 1) ((((cfg3.win 7).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 64 + 1 * q.val = win3_7.index t (1 : Fin 2) * 64 + 1 * q.val; omega
  have h3 : ((cfg3.win 3).blk t).view.emb (ix2 (0 : Fin 1) q) = ix2 (0 : Fin 1) ((((cfg3.win 7).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 64 + 1 * q.val = win3_7.index t (1 : Fin 2) * 64 + 1 * q.val; omega
  have h4 : ((cfg3.win 4).blk t).view.emb (ix2 (0 : Fin 1) q) = ix2 (0 : Fin 1) ((((cfg3.win 7).blk t).view.emb (ix2 p q)) 1) := by
    funext a; apply Fin.ext
    match a with
    | ⟨0, _⟩ => show win3_4.index t (0 : Fin 2) * 1 + 1 * 0 = 0; omega
    | ⟨1, _⟩ => show win3_4.index t (1 : Fin 2) * 64 + 1 * q.val = win3_7.index t (1 : Fin 2) * 64 + 1 * q.val; omega
  have h5 : ((cfg3.win 5).blk t).view.emb (ix2 (0 : Fin 1) q) = ix2 (0 : Fin 1) ((((cfg3.win 7).blk t).view.emb (ix2 p q)) 1) := by
    funext a; apply Fin.ext
    match a with
    | ⟨0, _⟩ => show win3_5.index t (0 : Fin 2) * 1 + 1 * 0 = 0; omega
    | ⟨1, _⟩ => show win3_5.index t (1 : Fin 2) * 64 + 1 * q.val = win3_7.index t (1 : Fin 2) * 64 + 1 * q.val; omega
  have h6 : ((cfg3.win 6).blk t).view.emb (ix2 (0 : Fin 1) q) = ix2 (0 : Fin 1) ((((cfg3.win 7).blk t).view.emb (ix2 p q)) 1) := by
    funext a; apply Fin.ext
    match a with
    | ⟨0, _⟩ => show win3_6.index t (0 : Fin 2) * 1 + 1 * 0 = 0; omega
    | ⟨1, _⟩ => show win3_6.index t (1 : Fin 2) * 64 + 1 * q.val = win3_7.index t (1 : Fin 2) * 64 + 1 * q.val; omega
  refine entry_congr _ _ ?_ ?_ ?_ ?_ ?_ ?_ ?_
  · exact congrArg (V c (Pipeline.arrRef spec3 2)) h2
  · exact congrArg (V c (Pipeline.arrRef spec3 0)) h0
  · exact congrArg (V c (Pipeline.arrRef spec3 4)) h4
  · exact congrArg (V c (Pipeline.arrRef spec3 5)) h5
  · exact congrArg (V c (Pipeline.arrRef spec3 6)) h6
  · exact congrArg (V c (Pipeline.arrRef spec3 3)) h3
  · exact congrArg (V c (Pipeline.arrRef spec3 1)) h1

/-- An index of the output array is in point `t`'s block iff each coordinate is in the block's range on its axis. -/
theorem mem_blk (t : Fin cfg3.N) (i : S100000x64.Idx) :
    i ∈ ((cfg3.win 7).blk t).view.set ↔ ∀ a : Fin 2, win3_7.index t a * S10000x64.size a ≤ (i a).val
      ∧ (i a).val < win3_7.index t a * S10000x64.size a + S10000x64.size a := by
  show i ∈ ((View.whole main_v61).slice (win3_7.rect t)).set ↔ _
  rw [View.set_slice_whole, Rect.mem_set_unit]
  exact Iff.rfl

/-- Every row lies in the block of the point numbered by its quotient by 10000. -/
theorem cover (i : S100000x64.Idx) :
    ∃ t : Fin cfg3.N, (cfg3.win 7).flush t = true ∧ i ∈ ((cfg3.win 7).blk t).view.set := by
  have hN : cfg3.N = 10 := N_3
  have hi0 : (i 0).val < 100000 := idx2_lt0 i
  have hi1 : (i 1).val < 64 := idx2_lt1 i
  let t : Fin cfg3.N := ⟨(i 0).val / 10000, by rw [hN]; omega⟩
  obtain ⟨-, -, -, -, -, -, -, -, -, -, -, -, -, -, o0, o1⟩ := idx_facts t
  have ht : t.val = (i 0).val / 10000 := rfl
  refine ⟨t, flush3_7 t, ?_⟩
  rw [mem_blk]
  intro a
  match a with
  | ⟨0, _⟩ => show win3_7.index t (0 : Fin 2) * 10000 ≤ (i 0).val ∧ (i 0).val < win3_7.index t (0 : Fin 2) * 10000 + 10000; omega
  | ⟨1, _⟩ => show win3_7.index t (1 : Fin 2) * 64 ≤ (i 1).val ∧ (i 1).val < win3_7.index t (1 : Fin 2) * 64 + 64; omega

/-- The output array after the region: the normalised array of the arrays the region found. -/
theorem arr7 (c : Dev nD) :
    (dat3 V c).arrAt 7 cfg3.N
      = finalize (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) :=
  (dat3 V c).arrAt_eq_of_cover 7 _ (fun t _ => flushed_eq V c t) cover

end Cert.KernelIdeal.Region3

end
-- ==== Proof.HostTail.lean ====
/-
  The statistics the idealized kernel's host code derives from the two accumulated rows: the mean per column
  `mu = S1 / 100000`, and the variance of the centred values from the first two moments,
  `S2 / 100000 + mu * mu * (a * a - 2 * a)`.
-/
import proofs.«103033_j38603166057035_2_alg».proof.Proof.Gen.ReferenceIdeal.Read

noncomputable section

namespace Cert.HostTail

open Idealize.ShloMosaic Cert.ReferenceIdeal Cert.ReferenceIdeal.Gen Cert.ReferenceIdeal.Facts Cert.ReferenceIdeal.Read

/-- The mean per column from the row of column sums. -/
def muOf (h : S1x64.ShapeCasts S64) (S1 : FVec Ideal S1x64 .f32) : FVec Ideal S64 .f32 :=
  Host.divf (shapeCast S64 S1 h) (val_main_v49 (F := Ideal))

/-- Twice a vector, as the host spells it: the splat of the constant 2 times the vector. -/
def twice (a : FVec Ideal S64 .f32) : FVec Ideal S64 .f32 :=
  mulf (broadcastInDim S64 ![] bcast_S_S64 (constant (F := Ideal) S_ .f32 0x40000000#32)) a

/-- The variance of the values centred at `a * mu`, from the rows of column sums and of column sums of squares. -/
def varOf (h : S1x64.ShapeCasts S64) (S1 S2 : FVec Ideal S1x64 .f32) (a : FVec Ideal S64 .f32) : FVec Ideal S64 .f32 :=
  addf (Host.divf (shapeCast S64 S2 h) (val_main_v57 (F := Ideal)))
    (mulf (mulf (muOf h S1) (muOf h S1)) (subf (mulf a a) (twice a)))

end Cert.HostTail

end
-- ==== Proof.Glue4.lean ====
/-
  The contents of the idealized kernel's buffers from the statistics region on: the aggregate it leaves, the row
  vectors the host derives for the normalisation region (scale, shift, centring coefficient, mean and variance per
  column, the last two from the two accumulated rows), and the result buffer.
-/
import proofs.«103033_j38603166057035_2_alg».proof.Proof.Glue3
import proofs.«103033_j38603166057035_2_alg».proof.Proof.Region2Agg
import proofs.«103033_j38603166057035_2_alg».proof.Proof.Region3
import proofs.«103033_j38603166057035_2_alg».proof.Proof.HostTail

set_option maxRecDepth 16384

noncomputable section

namespace Cert.KernelIdeal.Glue

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-! ## Leaving the statistics region -/

/-- The aggregate the region leaves, of the four arrays it found. -/
theorem W6_v42_0 (c : Dev nD) :
    W6 m ρ c (Proc.devRef .tc main_v42_0)
      = Region2.agg (W5 m ρ c (Proc.devRef .tc main_v38)) (W5 m ρ c (Proc.devRef .tc main_v4))
          (W5 m ρ c (Proc.devRef .tc main_v40)) (W5 m ρ c (Proc.devRef .tc main_v41)) :=
  (W6_arr m ρ c 4).trans (Region2.arr4 (V5 m ρ) c)

/-! ## Entering the normalisation region -/

theorem W7_v42_0 (c : Dev nD) : W7 m ρ c (Proc.devRef .tc main_v42_0) = W6 m ρ c (Proc.devRef .tc main_v42_0) :=
  StableHlo.after_of_forall_not_mem (b := Proc.devRef .tc main_v42_0) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 8000000 in
theorem W7_v56 (c : Dev nD) : W7 m ρ c (Proc.devRef .tc main_v56) = shapeCast S1x64 (x4 m c) shapeCasts_S64_S1x64 := by
  show StableHlo.after hostOps3 (W6 m ρ c) (Proc.devRef .tc main_v56) = _
  after_results_simp
  rw [W6_arg4]
  rfl

set_option maxHeartbeats 8000000 in
theorem W7_v57 (c : Dev nD) : W7 m ρ c (Proc.devRef .tc main_v57) = shapeCast S1x64 (x5 m c) shapeCasts_S64_S1x64 := by
  show StableHlo.after hostOps3 (W6 m ρ c) (Proc.devRef .tc main_v57) = _
  after_results_simp
  rw [W6_arg5]
  rfl

set_option maxHeartbeats 8000000 in
theorem W7_v58 (c : Dev nD) : W7 m ρ c (Proc.devRef .tc main_v58) = shapeCast S1x64 (x6 m c) shapeCasts_S64_S1x64 := by
  show StableHlo.after hostOps3 (W6 m ρ c) (Proc.devRef .tc main_v58) = _
  after_results_simp
  rw [W6_arg6]
  rfl

set_option maxHeartbeats 8000000 in
/-- The mean row, whatever the first accumulated row holds. -/
theorem W7_v59 (c : Dev nD) (S1 : S1x64.Idx → EReal) (hS1 : W6 m ρ c (Proc.devRef .tc main_v42_1) = S1) :
    W7 m ρ c (Proc.devRef .tc main_v59)
      = shapeCast S1x64 (Cert.HostTail.muOf shapeCasts_S1x64_S64 S1) shapeCasts_S64_S1x64 := by
  show StableHlo.after hostOps3 (W6 m ρ c) (Proc.devRef .tc main_v59) = _
  after_results_simp
  rw [hS1]
  rfl

set_option maxHeartbeats 8000000 in
/-- The variance row, whatever the two accumulated rows hold. -/
theorem W7_v60 (c : Dev nD) (S1 S2 : S1x64.Idx → EReal) (hS1 : W6 m ρ c (Proc.devRef .tc main_v42_1) = S1)
    (hS2 : W6 m ρ c (Proc.devRef .tc main_v42_2) = S2) :
    W7 m ρ c (Proc.devRef .tc main_v60)
      = shapeCast S1x64 (Cert.HostTail.varOf shapeCasts_S1x64_S64 S1 S2 (x6 m c)) shapeCasts_S64_S1x64 := by
  show StableHlo.after hostOps3 (W6 m ρ c) (Proc.devRef .tc main_v60) = _
  after_results_simp
  rw [hS1, hS2, W6_arg6]
  rfl

/-! ## The result -/

/-- The result buffer: the normalised array of the seven arrays the last region found. -/
theorem W8_v61 (c : Dev nD) :
    W8 m ρ c (Proc.devRef .tc main_v61)
      = Region3.finalize (W7 m ρ c (Proc.devRef .tc main_v42_0)) (W7 m ρ c (Proc.devRef .tc main_arg0))
          (W7 m ρ c (Proc.devRef .tc main_v56)) (W7 m ρ c (Proc.devRef .tc main_v57)) (W7 m ρ c (Proc.devRef .tc main_v58))
          (W7 m ρ c (Proc.devRef .tc main_v59)) (W7 m ρ c (Proc.devRef .tc main_v60)) :=
  (W8_arr m ρ c 7).trans (Region3.arr7 (V7 m ρ) c)

end Cert.KernelIdeal.Glue

end
-- ==== Proof.BlockSums.lean ====
/- A sum over the 100000 rows as the running sum of twenty blocks of 5000 consecutive rows.

   Row `r` of `Fin 100000` is `m * 5000 + p` for exactly one block `m < 20` and one offset `p < 5000`, so the sum
   over the rows is the sum over the blocks of each block's sum; `partialSum f n` is that sum over the first
   `n + 1` blocks, accumulated one block after the other, and at `n = 19` it is the whole sum. -/
import Mathlib.Data.EReal.Basic
import Mathlib.Data.Fintype.BigOperators
import Mathlib.Algebra.BigOperators.Fin
import Mathlib.Logic.Equiv.Fin.Basic

noncomputable section

namespace Cert.BlockSums

open scoped BigOperators

/-- The sum of `f` over block `m`: the rows `m * 5000 + p`, `p < 5000` (and `0` past the twentieth block). -/
def blockSum (f : Fin 100000 → EReal) (m : ℕ) : EReal :=
  if h : m < 20 then ∑ p : Fin 5000, f ⟨m * 5000 + p.val, by have := p.isLt; omega⟩ else 0

theorem blockSum_of_lt (f : Fin 100000 → EReal) (m : ℕ) (h : m < 20) :
    blockSum f m = ∑ p : Fin 5000, f ⟨m * 5000 + p.val, by have := p.isLt; omega⟩ :=
  dif_pos h

/-- The sum of the blocks `0, …, n`. -/
def partialSum (f : Fin 100000 → EReal) (n : ℕ) : EReal := ∑ m ∈ Finset.range (n + 1), blockSum f m

theorem partialSum_zero (f : Fin 100000 → EReal) : partialSum f 0 = blockSum f 0 := by
  unfold partialSum
  rw [Finset.sum_range_one]

theorem partialSum_succ (f : Fin 100000 → EReal) (n : ℕ) :
    partialSum f (n + 1) = partialSum f n + blockSum f (n + 1) := by
  unfold partialSum
  rw [Finset.sum_range_succ]

/-- The pair (block, offset) as a row: `(m, p) ↦ m * 5000 + p`, a bijection of `Fin 20 × Fin 5000` with the rows. -/
def rowEquiv : Fin 20 × Fin 5000 ≃ Fin 100000 := finProdFinEquiv

theorem rowEquiv_apply (x : Fin 20 × Fin 5000) :
    rowEquiv x = ⟨x.1.val * 5000 + x.2.val, by have := x.1.isLt; have := x.2.isLt; omega⟩ := by
  apply Fin.ext
  show x.2.val + 5000 * x.1.val = x.1.val * 5000 + x.2.val
  omega

/-- The twenty blocks exhaust the rows: the last partial sum is the sum over all rows. -/
theorem partialSum_last (f : Fin 100000 → EReal) : partialSum f 19 = ∑ r : Fin 100000, f r := by
  unfold partialSum
  rw [Finset.sum_range]
  have hb : ∀ m : Fin 20, blockSum f m.val
      = ∑ p : Fin 5000, f (rowEquiv (m, p)) := fun m => by
    rw [blockSum_of_lt f m.val m.isLt]
    exact Finset.sum_congr rfl fun p _ => congrArg f (rowEquiv_apply (m, p)).symm
  rw [Finset.sum_congr rfl fun m _ => hb m,
    ← Fintype.sum_prod_type' (fun (m : Fin 20) (p : Fin 5000) => f (rowEquiv (m, p)))]
  exact Fintype.sum_equiv rowEquiv _ _ fun x => rfl

end Cert.BlockSums

end
-- ==== Proof.Region2Acc.lean ====
/-
  The statistics region's two accumulators. Each of the 20 grid points adds, to the running `[1, 64]` row, the column
  sums (and the column sums of squares) of its 5000 rows of the aggregate; the first point starts from the zero row, and
  only the last point writes the rows back. So the two arrays end holding the column sums of the aggregate and of its
  square over all 100000 rows.
-/
import proofs.«103033_j38603166057035_2_alg».proof.Proof.Region2Agg
import proofs.«103033_j38603166057035_2_alg».proof.Proof.BlockSums
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Cert.KernelIdeal Cert.KernelIdeal.Gen Cert.Layout
open Idealize.ShloMosaic.Pipeline (Dat)

/-- The sum over the rows of a `[5000, 64]` block, read at lane `q`. -/
theorem laneSum_at (x : FVec Ideal S5000x64 .f32) (q : Fin 64) :
    multiReduction .add [0] S64 x 0x00000000#32 reduces_S5000x64_S64 (.inl rfl) rfl (ix1 q)
      = ∑ p : Fin 5000, x (ix2 p q) := by
  refine (Ideal.multiReduction_add_single _ _ _ _ _ (ix1 q)).trans ?_
  show ∑ p : Fin 5000, _ = _
  refine Finset.sum_congr rfl fun p _ => congrArg x ?_
  funext a; apply Fin.ext
  match a with
  | ⟨0, _⟩ => rfl
  | ⟨1, _⟩ => rfl

/-- The body's second stored value at lane `q`: the running row plus the block's column sum. -/
theorem pay4_at (v3 v5 : FVec Ideal S5000x64 .f32) (v7 : FVec Ideal S5000x1 .f32) (v12 v17 : FVec Ideal S1x64 .f32)
    (q : Fin 64) :
    k2_pay4 (F := Ideal) v3 v5 v7 v12 v17 (ix2 (0 : Fin 1) q)
      = v17 (ix2 (0 : Fin 1) q) + ∑ p : Fin 5000, k2_pay3 (F := Ideal) v3 v5 v7 v12 (ix2 p q) := by
  unfold k2_pay4
  simp only [shapeCast_self]
  rw [addf_apply, shapeCast_a_1a_apply, laneSum_at]

/-- The body's third stored value at lane `q`: the running row plus the block's column sum of squares. -/
theorem pay5_at (v3 v5 : FVec Ideal S5000x64 .f32) (v7 : FVec Ideal S5000x1 .f32) (v12 v23 : FVec Ideal S1x64 .f32)
    (q : Fin 64) :
    k2_pay5 (F := Ideal) v3 v5 v7 v12 v23 (ix2 (0 : Fin 1) q)
      = v23 (ix2 (0 : Fin 1) q)
        + ∑ p : Fin 5000, k2_pay3 (F := Ideal) v3 v5 v7 v12 (ix2 p q) * k2_pay3 (F := Ideal) v3 v5 v7 v12 (ix2 p q) := by
  unfold k2_pay5
  simp only [shapeCast_self]
  rw [addf_apply, shapeCast_a_1a_apply, laneSum_at]
  rfl

variable (V : (c : Dev nD) → (b : Ref sig .tc) → Buf (Elt Ideal) ((c : Thread nD τ).loc b))

/-! ### The sums -/

/-- At the first point the accumulator is zeroed before it is read: the point leaves its own block's column sums. -/
theorem step5_A (c : Dev nD) (t : Fin cfg2.N) (h0 : t.val % 20 = 0) (q : Fin 64) :
    (outsAt2 V c t.val t.isLt).2.1 (ix2 (0 : Fin 1) q) = ∑ p : Fin 5000, aggV V c (ix2 (⟨t.val * 5000 + p.val, by have := t.isLt; have hN : cfg2.N = 20 := N_2; omega⟩ : Fin 100000) q) := by
  rw [outsAt2_A V c t h0]
  dsimp only
  rw [out_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t),
    pay4_at (iblk2 V c 0 t) (iblk2 V c 1 t) (iblk2 V c 2 t) (iblk2 V c 3 t) (k2_pay1 (F := Ideal)) q,
    show k2_pay1 (F := Ideal) (ix2 (0 : Fin 1) q) = 0 from Ideal.ofBits_zero_f32, zero_add]
  exact Finset.sum_congr rfl fun p _ => pay3_blk V c t p q

/-- At a later point the accumulator is read at what the point before left: the point adds its block's column sums. -/
theorem step5_B (c : Dev nD) (t : Fin cfg2.N) (h0 : ¬t.val % 20 = 0) (q : Fin 64) :
    (outsAt2 V c t.val t.isLt).2.1 (ix2 (0 : Fin 1) q)
      = (outsAt2 V c (t.val - 1) (Nat.lt_of_le_of_lt (Nat.sub_le _ _) t.isLt)).2.1 (ix2 (0 : Fin 1) q) + ∑ p : Fin 5000, aggV V c (ix2 (⟨t.val * 5000 + p.val, by have := t.isLt; have hN : cfg2.N = 20 := N_2; omega⟩ : Fin 100000) q) := by
  rw [outsAt2_B V c t h0]
  dsimp only
  rw [out_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2,
    pay4_at (iblk2 V c 0 t) (iblk2 V c 1 t) (iblk2 V c 2 t) (iblk2 V c 3 t) (outsAt2 V c (t.val - 1) (Nat.lt_of_le_of_lt (Nat.sub_le _ _) t.isLt)).2.1 q]
  refine congrArg (_ + ·) ?_
  exact Finset.sum_congr rfl fun p _ => pay3_blk V c t p q

/-- After point `n` the first accumulator holds, at lane `q`, the sum of column `q` of the aggregate over the blocks
    `0, …, n`. -/
theorem acc5 (c : Dev nD) : ∀ (n : ℕ) (h : n < cfg2.N) (q : Fin 64),
    (outsAt2 V c n h).2.1 (ix2 (0 : Fin 1) q) = Cert.BlockSums.partialSum (fun r => aggV V c (ix2 r q)) n
  | 0, h, q => by
    rw [Cert.BlockSums.partialSum_zero, Cert.BlockSums.blockSum_of_lt _ 0 (by omega)]
    exact step5_A V c ⟨0, h⟩ rfl q
  | n + 1, h, q => by
    have hN : cfg2.N = 20 := N_2
    refine (step5_B V c ⟨n + 1, h⟩ (by dsimp only; omega) q).trans ?_
    show (outsAt2 V c n (Nat.lt_of_succ_lt h)).2.1 (ix2 (0 : Fin 1) q) + _ = _
    rw [acc5 c n (Nat.lt_of_succ_lt h) q, Cert.BlockSums.partialSum_succ,
      Cert.BlockSums.blockSum_of_lt _ (n + 1) (by omega)]

/-- Block `(0, 0)` of a `[1, 64]` array, read at `(0, q)`, is the array at `(0, q)`. -/
theorem read_blk5 (t : Fin cfg2.N) (G : S1x64.Idx → EReal) (q : Fin 64) :
    ((cfg2.win 5).blk t).view.read (Elt Ideal) G (ix2 (0 : Fin 1) q) = G (ix2 (0 : Fin 1) q) := by
  obtain ⟨-, -, -, -, -, -, -, -, -, -, e10, e11, -⟩ := idx_facts t
  refine congrArg G ?_
  funext a; apply Fin.ext
  match a with
  | ⟨0, _⟩ => show win2_5.index t (0 : Fin 2) * 1 + 1 * 0 = 0; omega
  | ⟨1, _⟩ => show win2_5.index t (1 : Fin 2) * 64 + 1 * q.val = q.val; omega

/-- The one write-back of the first accumulator, at the last point: the column sums over all the rows. -/
theorem flushed5_eq (c : Dev nD) (t : Fin cfg2.N) (hf : (cfg2.win 5).flush t = true) :
    (dat2 V c).flushed 5 t = ((cfg2.win 5).blk t).view.read (Elt Ideal) (colSum (aggV V c)) := by
  have hN : cfg2.N = 20 := N_2
  have h19 : t.val = 19 := by have := (flush2_5 t).mp hf; have := t.isLt; omega
  show (cfg2.win 5).cut (grid2.coords t) ((dat2 V c).after 5 t) = _
  rw [after2_5]
  funext j
  obtain ⟨u, q, rfl⟩ : ∃ (u : Fin 1) (q : Fin 64), j = ix2 u q := ⟨j 0, j 1, eq_ix2 j⟩
  have hu : u.val = 0 := by omega
  obtain rfl : u = 0 := Fin.ext hu
  have hL : (outsAt2 V c t.val t.isLt).2.1 (ix2 (0 : Fin 1) q) = colSum (aggV V c) (ix2 (0 : Fin 1) q) := by
    rw [acc5 V c t.val t.isLt q, h19]
    exact Cert.BlockSums.partialSum_last _
  exact hL.trans (read_blk5 t (colSum (aggV V c)) q).symm

/-- An index of the first accumulator's array is in point `t`'s block iff each coordinate is in the block's range. -/
theorem mem_blk5 (t : Fin cfg2.N) (i : S1x64.Idx) :
    i ∈ ((cfg2.win 5).blk t).view.set ↔ ∀ a : Fin 2, win2_5.index t a * S1x64.size a ≤ (i a).val
      ∧ (i a).val < win2_5.index t a * S1x64.size a + S1x64.size a := by
  show i ∈ ((View.whole main_v42_1).slice (win2_5.rect t)).set ↔ _
  rw [View.set_slice_whole, Rect.mem_set_unit]
  exact Iff.rfl

/-- The last point's block is the whole `[1, 64]` array. -/
theorem cover5 (i : S1x64.Idx) :
    ∃ t : Fin cfg2.N, (cfg2.win 5).flush t = true ∧ i ∈ ((cfg2.win 5).blk t).view.set := by
  have hN : cfg2.N = 20 := N_2
  have hi0 : (i 0).val < 1 := idx2_lt0 i
  have hi1 : (i 1).val < 64 := idx2_lt1 i
  let t : Fin cfg2.N := ⟨19, by rw [hN]; omega⟩
  obtain ⟨-, -, -, -, -, -, -, -, -, -, e10, e11, -⟩ := idx_facts t
  refine ⟨t, (flush2_5 t).mpr (by show (19 : ℕ) % 20 = 19; rfl), ?_⟩
  rw [mem_blk5]
  intro a
  match a with
  | ⟨0, _⟩ => show win2_5.index t (0 : Fin 2) * 1 ≤ (i 0).val ∧ (i 0).val < win2_5.index t (0 : Fin 2) * 1 + 1; omega
  | ⟨1, _⟩ => show win2_5.index t (1 : Fin 2) * 64 ≤ (i 1).val ∧ (i 1).val < win2_5.index t (1 : Fin 2) * 64 + 64; omega

/-- The first accumulator's array after the region: the column sums of the aggregate. -/
theorem arr5 (c : Dev nD) : (dat2 V c).arrAt 5 cfg2.N = colSum (aggV V c) :=
  (dat2 V c).arrAt_eq_of_cover 5 _ (fun t hf => flushed5_eq V c t hf) cover5

/-! ### The sums of squares -/

/-- At the first point the second accumulator leaves its own block's column sums of squares. -/
theorem step6_A (c : Dev nD) (t : Fin cfg2.N) (h0 : t.val % 20 = 0) (q : Fin 64) :
    (outsAt2 V c t.val t.isLt).2.2 (ix2 (0 : Fin 1) q)
      = ∑ p : Fin 5000, aggV V c (ix2 (⟨t.val * 5000 + p.val, by have := t.isLt; have hN : cfg2.N = 20 := N_2; omega⟩ : Fin 100000) q) * aggV V c (ix2 (⟨t.val * 5000 + p.val, by have := t.isLt; have hN : cfg2.N = 20 := N_2; omega⟩ : Fin 100000) q) := by
  rw [outsAt2_A V c t h0]
  dsimp only
  rw [out_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t),
    pay5_at (iblk2 V c 0 t) (iblk2 V c 1 t) (iblk2 V c 2 t) (iblk2 V c 3 t) (k2_pay2 (F := Ideal)) q,
    show k2_pay2 (F := Ideal) (ix2 (0 : Fin 1) q) = 0 from Ideal.ofBits_zero_f32, zero_add]
  exact Finset.sum_congr rfl fun p _ => congrArg₂ (· * ·) (pay3_blk V c t p q) (pay3_blk V c t p q)

/-- At a later point the second accumulator adds its block's column sums of squares to what the point before left. -/
theorem step6_B (c : Dev nD) (t : Fin cfg2.N) (h0 : ¬t.val % 20 = 0) (q : Fin 64) :
    (outsAt2 V c t.val t.isLt).2.2 (ix2 (0 : Fin 1) q)
      = (outsAt2 V c (t.val - 1) (Nat.lt_of_le_of_lt (Nat.sub_le _ _) t.isLt)).2.2 (ix2 (0 : Fin 1) q)
        + ∑ p : Fin 5000, aggV V c (ix2 (⟨t.val * 5000 + p.val, by have := t.isLt; have hN : cfg2.N = 20 := N_2; omega⟩ : Fin 100000) q) * aggV V c (ix2 (⟨t.val * 5000 + p.val, by have := t.isLt; have hN : cfg2.N = 20 := N_2; omega⟩ : Fin 100000) q) := by
  rw [outsAt2_B V c t h0]
  dsimp only
  rw [out_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2,
    pay5_at (iblk2 V c 0 t) (iblk2 V c 1 t) (iblk2 V c 2 t) (iblk2 V c 3 t) (outsAt2 V c (t.val - 1) (Nat.lt_of_le_of_lt (Nat.sub_le _ _) t.isLt)).2.2 q]
  refine congrArg (_ + ·) ?_
  exact Finset.sum_congr rfl fun p _ => congrArg₂ (· * ·) (pay3_blk V c t p q) (pay3_blk V c t p q)

/-- After point `n` the second accumulator holds, at lane `q`, the sum of the squares of column `q` of the aggregate
    over the blocks `0, …, n`. -/
theorem acc6 (c : Dev nD) : ∀ (n : ℕ) (h : n < cfg2.N) (q : Fin 64),
    (outsAt2 V c n h).2.2 (ix2 (0 : Fin 1) q)
      = Cert.BlockSums.partialSum (fun r => aggV V c (ix2 r q) * aggV V c (ix2 r q)) n
  | 0, h, q => by
    rw [Cert.BlockSums.partialSum_zero, Cert.BlockSums.blockSum_of_lt _ 0 (by omega)]
    exact step6_A V c ⟨0, h⟩ rfl q
  | n + 1, h, q => by
    have hN : cfg2.N = 20 := N_2
    refine (step6_B V c ⟨n + 1, h⟩ (by dsimp only; omega) q).trans ?_
    show (outsAt2 V c n (Nat.lt_of_succ_lt h)).2.2 (ix2 (0 : Fin 1) q) + _ = _
    rw [acc6 c n (Nat.lt_of_succ_lt h) q, Cert.BlockSums.partialSum_succ,
      Cert.BlockSums.blockSum_of_lt _ (n + 1) (by omega)]

/-- Block `(0, 0)` of a `[1, 64]` array, read at `(0, q)`, is the array at `(0, q)`. -/
theorem read_blk6 (t : Fin cfg2.N) (G : S1x64.Idx → EReal) (q : Fin 64) :
    ((cfg2.win 6).blk t).view.read (Elt Ideal) G (ix2 (0 : Fin 1) q) = G (ix2 (0 : Fin 1) q) := by
  obtain ⟨-, -, -, -, -, -, -, -, -, -, -, -, e12, e13⟩ := idx_facts t
  refine congrArg G ?_
  funext a; apply Fin.ext
  match a with
  | ⟨0, _⟩ => show win2_6.index t (0 : Fin 2) * 1 + 1 * 0 = 0; omega
  | ⟨1, _⟩ => show win2_6.index t (1 : Fin 2) * 64 + 1 * q.val = q.val; omega

/-- The one write-back of the second accumulator, at the last point: the column sums of squares over all the rows. -/
theorem flushed6_eq (c : Dev nD) (t : Fin cfg2.N) (hf : (cfg2.win 6).flush t = true) :
    (dat2 V c).flushed 6 t
      = ((cfg2.win 6).blk t).view.read (Elt Ideal) (colSum (fun i => aggV V c i * aggV V c i)) := by
  have hN : cfg2.N = 20 := N_2
  have h19 : t.val = 19 := by have := (flush2_6 t).mp hf; have := t.isLt; omega
  show (cfg2.win 6).cut (grid2.coords t) ((dat2 V c).after 6 t) = _
  rw [after2_6]
  funext j
  obtain ⟨u, q, rfl⟩ : ∃ (u : Fin 1) (q : Fin 64), j = ix2 u q := ⟨j 0, j 1, eq_ix2 j⟩
  have hu : u.val = 0 := by omega
  obtain rfl : u = 0 := Fin.ext hu
  have hL : (outsAt2 V c t.val t.isLt).2.2 (ix2 (0 : Fin 1) q)
      = colSum (fun i => aggV V c i * aggV V c i) (ix2 (0 : Fin 1) q) := by
    rw [acc6 V c t.val t.isLt q, h19]
    exact Cert.BlockSums.partialSum_last _
  exact hL.trans (read_blk6 t (colSum (fun i => aggV V c i * aggV V c i)) q).symm

/-- An index of the second accumulator's array is in point `t`'s block iff each coordinate is in the block's range. -/
theorem mem_blk6 (t : Fin cfg2.N) (i : S1x64.Idx) :
    i ∈ ((cfg2.win 6).blk t).view.set ↔ ∀ a : Fin 2, win2_6.index t a * S1x64.size a ≤ (i a).val
      ∧ (i a).val < win2_6.index t a * S1x64.size a + S1x64.size a := by
  show i ∈ ((View.whole main_v42_2).slice (win2_6.rect t)).set ↔ _
  rw [View.set_slice_whole, Rect.mem_set_unit]
  exact Iff.rfl

/-- The last point's block is the whole `[1, 64]` array. -/
theorem cover6 (i : S1x64.Idx) :
    ∃ t : Fin cfg2.N, (cfg2.win 6).flush t = true ∧ i ∈ ((cfg2.win 6).blk t).view.set := by
  have hN : cfg2.N = 20 := N_2
  have hi0 : (i 0).val < 1 := idx2_lt0 i
  have hi1 : (i 1).val < 64 := idx2_lt1 i
  let t : Fin cfg2.N := ⟨19, by rw [hN]; omega⟩
  obtain ⟨-, -, -, -, -, -, -, -, -, -, -, -, e12, e13⟩ := idx_facts t
  refine ⟨t, (flush2_6 t).mpr (by show (19 : ℕ) % 20 = 19; rfl), ?_⟩
  rw [mem_blk6]
  intro a
  match a with
  | ⟨0, _⟩ => show win2_6.index t (0 : Fin 2) * 1 ≤ (i 0).val ∧ (i 0).val < win2_6.index t (0 : Fin 2) * 1 + 1; omega
  | ⟨1, _⟩ => show win2_6.index t (1 : Fin 2) * 64 ≤ (i 1).val ∧ (i 1).val < win2_6.index t (1 : Fin 2) * 64 + 64; omega

/-- The second accumulator's array after the region: the column sums of the squares of the aggregate. -/
theorem arr6 (c : Dev nD) : (dat2 V c).arrAt 6 cfg2.N = colSum (fun i => aggV V c i * aggV V c i) :=
  (dat2 V c).arrAt_eq_of_cover 6 _ (fun t hf => flushed6_eq V c t hf) cover6

end Cert.KernelIdeal.Region2

end
-- ==== Proof.LibSegmentSum.lean ====
/-
  Row gather and accumulating row scatter along the leading axis, read at an index, and the one algebraic law a
  degree-normalised neighbourhood sum rests on: a nonnegative real factor passes through a finite sum of extended reals.
  Nothing here mentions a particular program; the sizes are parameters.
-/
import Idealize.ShloMosaic.PureOps.Ideal
import Idealize.ShloMosaic.PureOps.Ideal.Laws
import Idealize.ShloMosaic.Lib.ValueIdx

noncomputable section

open scoped BigOperators

namespace Idealize.ShloMosaic.SegmentSum

open Idealize.ShloMosaic
open Idealize.ShloMosaic.ValueIdx

/-! ## A nonnegative real factor and finite sums of extended reals

The extended reals are not a semiring: `(⊤ + ⊥) * c` and `⊤ * c + ⊥ * c` differ in general. A factor that is a
nonnegative REAL is harmless: it sends each infinity to itself or to zero, and both sides agree. -/

/-- Multiplication on the right by a nonnegative real distributes over every finite sum of extended reals. -/
theorem sum_mul_coe_nonneg {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- In a scatter-add into zeros, a factor that equals one nonnegative real `r` on every update landing at `i` can be
    taken out of the sum at `i`: the scattered products at `i` are `r` times the scattered first factors at `i`. -/
theorem hostScatterAdd_zero_mul_fibre {s si su : Shape} (d : ScatterDims s si su) {w : Nat} (idx : IVec si w)
    (U B : su.Idx → EReal) (i : s.Idx) (r : ℝ) (hr : 0 ≤ r)
    (hB : ∀ j, d.resultIdx? j idx = some i → B j = (r : EReal)) :
    Ideal.hostScatterAdd d (fun _ => 0) idx (fun j => U j * B j) i
      = Ideal.hostScatterAdd d (fun _ => 0) idx U i * (r : EReal) := by
  unfold Ideal.hostScatterAdd
  rw [zero_add, zero_add, sum_mul_coe_nonneg _ _ r hr]
  refine Finset.sum_congr rfl fun j hj => ?_
  show U j * B j = U j * (r : EReal)
  rw [hB j (Finset.mem_filter.mp hj).2]

/-! ## The accumulating row scatter along the leading axis

What a segment sum of rows lowers to: update row `e` of an `[E, D]` array is added into operand row `idx[e, 0]` of an
`[N, D]` array, column by column. Axis 0 of the operand is an inserted window axis (the update has no coordinate on
it), axis 1 is the window; the start index is read signed and is not clamped. -/

/-- The dimension numbers of that scatter for an operand `[N, D]`, scatter indices `[E, 1]` and updates `[E, D]`;
    their conditions `wf` are decided on literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update that lands at row `n` was addressed to row `n`: if update element `j` lands at operand index `i`, the
    scatter index of `j`'s row, read as a signed integer, is `i`'s row number. (On axis 0 the landing coordinate is
    the start index plus a window coordinate that is zero, the axis being inserted.) -/
theorem rowScatter_lands {N E D w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N E D wf).resultIdx? j idx = some i) :
    (idx (ix2 (j 0) 0)).toInt = ((i 0).val : ℤ) := by
  unfold ScatterDims.resultIdx? at h
  split at h
  · rename_i hin
    have hv : ((rowScatterDims N E D wf).start j idx 0 + (rowScatterDims N E D wf).window j 0).toNat = (i 0).val :=
      congrArg Fin.val (congrFun (Option.some.inj h) 0)
    have hpos := (hin 0).1
    have hwin : (rowScatterDims N E D wf).window j 0 = 0 := by
      unfold ScatterDims.window
      rw [dif_neg (by simp [ScatterDims.sKept, Shape.kept, List.mem_filter, List.mem_finRange])]
    have hstart : (rowScatterDims N E D wf).start j idx 0 = (idx (ix2 (j 0) 0)).toInt := by
      unfold ScatterDims.start
      rw [dif_pos (show (0 : Fin 2) ∈ (rowScatterDims N E D wf).scatterDimsToOperandDims from List.mem_singleton.mpr rfl)]
      have hsi : (rowScatterDims N E D wf).siIdx j ⟨List.idxOf (0 : Fin 2) (rowScatterDims N E D wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    rw [hwin, hstart] at hv hpos
    omega
  · cases h

/-! ## The clamped row a gather reads, and the row a landed update was addressed to -/

/-- The operand row a gather along axis 0 reads for start-index row `e`: the index `idx[e, 0]` read as a signed
    integer, a negative one taken to `0`, clamped to the last row `N − 1`. -/
def clampRow (N : Nat) (hN : 0 < N) {E w : Nat} (idx : IVec ⟨2, ![E, 1]⟩ w) (e : Fin E) : Fin N :=
  ⟨min (idx (ix2 e 0)).toInt.toNat (N - 1), by omega⟩

/-- If update element `j` lands at operand index `i` under the indices `idx`, then any index array `idx'` that reads
    the same signed integer at `j`'s row gathers exactly row `i 0` there: the integer is `i`'s row number, nonnegative
    and below `N`, so neither clamp moves it. -/
theorem clampRow_of_lands {N E D w : Nat} (hN : 0 < N)
    (wf : ScatterDims.WF ⟨2, ![N, D]⟩ ⟨2, ![E, 1]⟩ ⟨2, ![E, D]⟩ [1] [0] [0] 1)
    (idx idx' : IVec ⟨2, ![E, 1]⟩ w) (j : (⟨2, ![E, D]⟩ : Shape).Idx) (i : (⟨2, ![N, D]⟩ : Shape).Idx)
    (h : (rowScatterDims N E D wf).resultIdx? j idx = some i)
    (hsame : (idx' (ix2 (j 0) 0)).toInt = (idx (ix2 (j 0) 0)).toInt) :
    clampRow N hN idx' (j 0) = i 0 := by
  have hl := rowScatter_lands wf idx j i h
  have hi : (i 0).val < N := idx2_lt0 i
  refine Fin.ext ?_
  show min (idx' (ix2 (j 0) 0)).toInt.toNat (N - 1) = (i 0).val
  rw [hsame, hl]
  omega

/-! ## The row gather along the leading axis

What `x[idx]` of an `[N, D]` array at an index column `idx : [E, 1]` lowers to: result row `e` is operand row
`idx[e, 0]`, read signed and clamped into `[0, N − 1]`; axis 0 of the operand is collapsed (slice size 1), axis 1 is
the offset axis, taken whole. -/

section Gather
variable {α : Type}

/-- The dimension numbers of that gather for an operand `[N, D]`, start indices `[E, 1]` and result `[E, D]`; their
    conditions `wf` are decided on literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather read at `(e, c)`: the operand at the clamped row of `e` and column `c`. (On axis 0 the operand
    coordinate is the clamped start index alone; on axis 1 it is the result's own column, the start being zero there.) -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y = x (ix2 (clampRow N hN idx (y 0)) (y 1)) := by
  unfold Host.gather
  congr 1
  funext a
  refine Fin.ext ?_
  match a with
  | ⟨0, _⟩ =>
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (rowGatherDims N E D wf).start y idx 1 + (rowGatherDims N E D wf).batchCoord y 1
      + (rowGatherDims N E D wf).offCoord y 1 = (y 1).val
    have hst : (rowGatherDims N E D wf).start y idx 1 = 0 := by
      unfold GatherDims.start
      rw [dif_neg (fun h => absurd (List.mem_singleton.mp h) (show ¬ (1 : Fin 2) = 0 by decide))]
    have hoff : (rowGatherDims N E D wf).offCoord y 1 = (y 1).val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hst, GatherDims.batchCoord_eq_zero _ _ _ List.not_mem_nil, hoff]
    omega

/-! ## The gather of a flat array at an index column

What `x[idx]` of an `[N]` array at `idx : [E, 1]` lowers to: result element `e` is `x` at `idx[e, 0]`, read signed and
clamped into `[0, N − 1]`; no offset axis. -/

/-- The dimension numbers of that gather for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the clamped row of `e`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow N hN idx (y 0))) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

end Gather

/-! ## The normalisation coefficient is a nonnegative real

Scattering ones into zeros counts, at each operand element, the updates that land there. The coefficient
`count > 0 ? count^(-1/2) : 0` is therefore a nonnegative real number, never an infinity. -/

/-- A finite sum of ones in the extended reals is the number of its terms. -/
theorem sum_one_eq_card {ι : Type*} (s : Finset ι) : ∑ _j ∈ s, (1 : EReal) = ((s.card : ℝ) : EReal) := by
  classical
  induction s using Finset.induction_on with
  | empty => simp
  | insert a s ha ih =>
    rw [Finset.sum_insert ha, Finset.card_insert_of_notMem ha, ih, Nat.cast_succ, EReal.coe_add, EReal.coe_one,
      add_comm]

/-- For a natural number `n` read as an extended real, `n > 0 ? n^(-1/2) : 0` is a nonnegative real: zero when
    `n = 0`, the inverse of the real square root otherwise. -/
theorem select_rsqrt_natCast_real (n : ℕ) :
    ∃ r : ℝ, 0 ≤ r ∧
      Scalar.select (Ideal.cmp .ogt ((n : ℝ) : EReal) 0) (Ideal.rsqrt ((n : ℝ) : EReal)) (0 : EReal) = (r : EReal) := by
  rcases Nat.eq_zero_or_pos n with rfl | hn
  · refine ⟨0, le_refl _, ?_⟩
    have hc : Ideal.cmp .ogt (((0 : ℕ) : ℝ) : EReal) 0 = 0#1 := by
      show BitVec.ofBool (decide ((0 : EReal) < (((0 : ℕ) : ℝ) : EReal))) = 0#1
      rw [decide_eq_false (by simp)]
      rfl
    rw [hc, select_zero]
    rfl
  · have hpos : (0 : ℝ) < (n : ℝ) := Nat.cast_pos.mpr hn
    refine ⟨(Real.sqrt (n : ℝ))⁻¹, inv_nonneg.mpr (Real.sqrt_nonneg _), ?_⟩
    have hc : Ideal.cmp .ogt ((n : ℝ) : EReal) 0 = 1#1 := by
      show BitVec.ofBool (decide ((0 : EReal) < ((n : ℝ) : EReal))) = 1#1
      rw [decide_eq_true (EReal.coe_pos.mpr hpos)]
      rfl
    rw [hc, select_one, Ideal.rsqrt_coe, if_neg (not_lt.mpr hpos.le), if_neg hpos.ne']

/-- The degree coefficient at operand element `i`: with `g` the scatter-add of ones into zeros at `i` (the number of
    updates landing there), `g > 0 ? g^(-1/2) : 0` is a nonnegative real. -/
theorem degree_coeff_real {s si su : Shape} (d : ScatterDims s si su) {w : Nat} (idx : IVec si w) (i : s.Idx) :
    ∃ r : ℝ, 0 ≤ r ∧
      Scalar.select (Ideal.cmp .ogt (Ideal.hostScatterAdd d (fun _ => (0 : EReal)) idx (fun _ => (1 : EReal)) i) 0)
        (Ideal.rsqrt (Ideal.hostScatterAdd d (fun _ => (0 : EReal)) idx (fun _ => (1 : EReal)) i)) (0 : EReal)
        = (r : EReal) := by
  have hg : ∃ n : ℕ, Ideal.hostScatterAdd d (fun _ => (0 : EReal)) idx (fun _ => (1 : EReal)) i = ((n : ℝ) : EReal) := by
    unfold Ideal.hostScatterAdd
    exact ⟨_, by rw [zero_add, sum_one_eq_card]⟩
  obtain ⟨n, hn⟩ := hg
  rw [hn]
  exact select_rsqrt_natCast_real n

end Idealize.ShloMosaic.SegmentSum

end
-- ==== Proof.AggReal.lean ====
/-
  Every entry of the aggregated features `agg = scatter_add(h[src] * norm) + h * dinv² + b` (stage 47 of the
  reference) is a real number as soon as the features `x`, the weights `W` and the bias `b` are real-valued, whatever
  the edge indices are. The degree `deg = (number of edges landing at a node) + 1` is a positive natural number, so
  `dinv = deg^(-1/2)` is the real `(√deg)⁻¹`; `h = x W` is a finite sum of products of reals; every later stage adds,
  multiplies or finitely sums earlier ones, or reads one of them at some index. The extended reals that are real
  numbers are closed under all of these.
-/
import proofs.«103033_j38603166057035_2_alg».proof.Proof.Gen.ReferenceIdeal.Read
import proofs.«103033_j38603166057035_2_alg».proof.Proof.LibSegmentSum
import Idealize.ShloMosaic.Lib.IdealHost

noncomputable section

open scoped BigOperators

namespace Cert.ReferenceIdeal.AggReal

open Cert.ReferenceIdeal Cert.ReferenceIdeal.Gen Cert.ReferenceIdeal.Read Idealize.ShloMosaic Idealize.ShloMosaic.TcCoe
  Idealize.SL.Sem Idealize.ShloMosaic.StableHlo Idealize.ShloMosaic.SegmentSum

/-! ## Extended reals that are real numbers -/

/-- An extended real that is (the image of) a real number: neither infinity. -/
def IsReal (x : EReal) : Prop := ∃ r : ℝ, x = (r : EReal)

/-- The sum of two reals is a real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is a real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of extended reals that are all real is real. -/
theorem IsReal.sum {ι : Type*} (s : Finset ι) (f : ι → EReal) (h : ∀ j ∈ s, IsReal (f j)) :
    IsReal (∑ j ∈ s, f j) := by
  classical
  induction s using Finset.induction_on with
  | empty => exact ⟨0, by simp⟩
  | insert a s ha ih =>
    rw [Finset.sum_insert ha]
    exact (h a (Finset.mem_insert_self a s)).add (ih fun j hj => h j (Finset.mem_insert_of_mem hj))

/-- An accumulating scatter of real updates into a real operand is real at every index: the operand there plus a
    finite sum of updates. -/
theorem IsReal.hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- A scatter-add of ones into zeros counts, at each index, the updates landing there: a natural number. -/
theorem count_nat {s si su : Shape} (d : ScatterDims s si su) {w : Nat} (idx : IVec si w) (x : s.Idx → EReal)
    (upd : su.Idx → EReal) (hx : ∀ i, x i = 0) (hu : ∀ j, upd j = 1) (i : s.Idx) :
    ∃ n : ℕ, Ideal.hostScatterAdd d x idx upd i = ((n : ℝ) : EReal) := by
  unfold Ideal.hostScatterAdd
  exact ⟨_, by rw [hx i, zero_add, Finset.sum_congr rfl (fun j _ => hu j), sum_one_eq_card]⟩

/-- At the extended reals the host's accumulating scatter is the exact one: the operand plus the sum of the updates
    landing at each index. -/
theorem scatterAdd_ideal {s si su : Shape} (d : ScatterDims s si su) {w : Nat} (x : s.Idx → EReal) (idx : IVec si w)
    (upd : su.Idx → EReal) :
    Host.scatterAdd (F := Ideal) (φ := .f32) d x idx upd = Ideal.hostScatterAdd d x idx upd := rfl

/-- A gather read at a result index is the operand at the operand index the dimension numbers compute. -/
theorem gather_at {α : Type} {s si t : Shape} {w : Nat} (d : GatherDims s si t) (x : s.Idx → α) (idx : IVec si w)
    (j : t.Idx) : Host.gather d x idx j = x (d.operandIdx j idx) := rfl

/-! ## The constant stages -/

theorem v5_one (j : S1600000.Idx) : val_main_v5 (F := Ideal) j = (1 : EReal) := by
  rw [val_main_v5_apply, val_main_cst_apply]
  exact Ideal.ofBits_one_f32

theorem v6_zero (i : S100000.Idx) : val_main_v6 (F := Ideal) i = (0 : EReal) := by
  rw [val_main_v6_apply, val_main_cst_0_apply]
  exact Ideal.ofBits_zero_f32

theorem v9_one (i : S100000.Idx) : val_main_v9 (F := Ideal) i = (1 : EReal) := by
  rw [val_main_v9_apply, val_main_cst_1_apply]
  exact Ideal.ofBits_one_f32

theorem v37_zero (i : S100000x64.Idx) : val_main_v37 (F := Ideal) i = (0 : EReal) := by
  rw [val_main_v37_apply, val_main_cst_7_apply]
  exact Ideal.ofBits_zero_f32

/-! ## The stages that scatter or gather, as their defining equations -/

theorem v8_def (x1 : (⟨S2x1600000, .i32⟩ : BufTy).Contents (Elt Ideal)) :
    val_main_v8 (F := Ideal) x1 = Host.scatterAdd (F := Ideal) (φ := .f32) scatter_S100000_S1600000x1_S1600000_n_0_0_1 (val_main_v6 (F := Ideal))
      (val_main_v7 (F := Ideal) x1) (val_main_v5 (F := Ideal)) := rfl

theorem v18_def (x1 : (⟨S2x1600000, .i32⟩ : BufTy).Contents (Elt Ideal)) :
    val_main_v18 (F := Ideal) x1 = Host.gather gather_S100000_S1600000x1_S1600000_n_0_n_n_0_1_1
      (val_main_v11 (F := Ideal) x1) (val_main_v17 (F := Ideal) x1) := rfl

theorem v25_def (x1 : (⟨S2x1600000, .i32⟩ : BufTy).Contents (Elt Ideal)) :
    val_main_v25 (F := Ideal) x1 = Host.gather gather_S100000_S1600000x1_S1600000_n_0_n_n_0_1_1
      (val_main_v11 (F := Ideal) x1) (val_main_v24 (F := Ideal) x1) := rfl

theorem v33_def (x0 : (⟨S100000x64, .f32⟩ : BufTy).Contents (Elt Ideal))
    (x1 : (⟨S2x1600000, .i32⟩ : BufTy).Contents (Elt Ideal)) (x2 : (⟨S64x64, .f32⟩ : BufTy).Contents (Elt Ideal)) :
    val_main_v33 (F := Ideal) x0 x1 x2 = Host.gather gather_S100000x64_S1600000x1_S1600000x64_1_0_n_n_0_1_164
      (val_main_v4 (F := Ideal) x0 x2) (val_main_v32 (F := Ideal) x1) := rfl

theorem v39_def (x0 : (⟨S100000x64, .f32⟩ : BufTy).Contents (Elt Ideal))
    (x1 : (⟨S2x1600000, .i32⟩ : BufTy).Contents (Elt Ideal)) (x2 : (⟨S64x64, .f32⟩ : BufTy).Contents (Elt Ideal)) :
    val_main_v39 (F := Ideal) x0 x1 x2 = Host.scatterAdd (F := Ideal) (φ := .f32) scatter_S100000x64_S1600000x1_S1600000x64_1_0_0_1
      (val_main_v37 (F := Ideal)) (val_main_v38 (F := Ideal) x1) (val_main_v36 (F := Ideal) x0 x1 x2) := rfl

/-! ## The degree and its inverse square root -/

/-- Stage 8, the scatter-add of ones into zeros, counts the edges landing at a node: a natural number. -/
theorem v8_nat (x1 : (⟨S2x1600000, .i32⟩ : BufTy).Contents (Elt Ideal)) (i : S100000.Idx) :
    ∃ n : ℕ, val_main_v8 (F := Ideal) x1 i = ((n : ℝ) : EReal) := by
  rw [v8_def, scatterAdd_ideal]
  exact count_nat scatter_S100000_S1600000x1_S1600000_n_0_0_1 (val_main_v7 (F := Ideal) x1) (val_main_v6 (F := Ideal))
    (val_main_v5 (F := Ideal)) v6_zero v5_one i

/-- `dinv = (count + 1)^(-1/2)` is real: the count plus one is a positive real, whose inverse square root is
    `(√(count + 1))⁻¹`. -/
theorem dinv_real (x1 : (⟨S2x1600000, .i32⟩ : BufTy).Contents (Elt Ideal)) (i : S100000.Idx) :
    IsReal (val_main_v11 (F := Ideal) x1 i) := by
  obtain ⟨n, hn⟩ := v8_nat x1 i
  have hpos : (0 : ℝ) < (n : ℝ) + 1 := by positivity
  rw [val_main_v11_apply, val_main_v10_apply, Ideal.hostUnary_rsqrt_def, Ideal.addf_def, hn, v9_one,
    show ((n : ℝ) : EReal) + 1 = (((n : ℝ) + 1 : ℝ) : EReal) by rw [EReal.coe_add, EReal.coe_one],
    Ideal.rsqrt_coe, if_neg (not_lt.mpr hpos.le), if_neg hpos.ne']
  exact ⟨_, rfl⟩

/-- Stage 18 reads `dinv` at some node. -/
theorem v18_real (x1 : (⟨S2x1600000, .i32⟩ : BufTy).Contents (Elt Ideal)) (e : S1600000.Idx) :
    IsReal (val_main_v18 (F := Ideal) x1 e) := by
  rw [v18_def, gather_at]
  exact dinv_real x1 _

/-- Stage 25 reads `dinv` at some node. -/
theorem v25_real (x1 : (⟨S2x1600000, .i32⟩ : BufTy).Contents (Elt Ideal)) (e : S1600000.Idx) :
    IsReal (val_main_v25 (F := Ideal) x1 e) := by
  rw [v25_def, gather_at]
  exact dinv_real x1 _

/-- The edge coefficient `norm = dinv[src] * dinv[dst]` is real. -/
theorem norm_real (x1 : (⟨S2x1600000, .i32⟩ : BufTy).Contents (Elt Ideal)) (e : S1600000.Idx) :
    IsReal (val_main_v26 (F := Ideal) x1 e) := by
  rw [val_main_v26_apply, Ideal.mulf_def]
  exact (v18_real x1 e).mul (v25_real x1 e)

/-- The coefficient broadcast along the feature axis is real. -/
theorem v35_real (x1 : (⟨S2x1600000, .i32⟩ : BufTy).Contents (Elt Ideal)) (j : S1600000x64.Idx) :
    IsReal (val_main_v35 (F := Ideal) x1 j) := by
  rw [val_main_v35_apply, val_main_v34_apply]
  exact norm_real x1 _

/-! ## The transformed features and the messages -/

section
variable (x0 : (⟨S100000x64, .f32⟩ : BufTy).Contents (Elt Ideal))
  (x1 : (⟨S2x1600000, .i32⟩ : BufTy).Contents (Elt Ideal))
  (x2 : (⟨S64x64, .f32⟩ : BufTy).Contents (Elt Ideal))
  (x3 : (⟨S64, .f32⟩ : BufTy).Contents (Elt Ideal))
  (h0 : ∀ i, IsReal (x0 i)) (h2 : ∀ i, IsReal (x2 i)) (h3 : ∀ i, IsReal (x3 i))
include h0 h2

/-- `h = x W` is real: a sum over 64 terms of products of reals. -/
theorem h_real (i : S100000x64.Idx) : IsReal (val_main_v4 (F := Ideal) x0 x2 i) := by
  rw [val_main_v4_apply]
  exact IsReal.sum _ _ fun k _ => (h0 _).mul (h2 _)

/-- Stage 33 reads `h` at some index. -/
theorem v33_real (j : S1600000x64.Idx) : IsReal (val_main_v33 (F := Ideal) x0 x1 x2 j) := by
  rw [v33_def, gather_at]
  exact h_real x0 x2 h0 h2 _

/-- The message `h[src] * norm` is real. -/
theorem msg_real (j : S1600000x64.Idx) : IsReal (val_main_v36 (F := Ideal) x0 x1 x2 j) := by
  rw [val_main_v36_apply, Ideal.mulf_def]
  exact (v33_real x0 x1 x2 h0 h2 j).mul (v35_real x1 j)

/-- The scattered messages are real: zero plus a finite sum of messages. -/
theorem scat_real (i : S100000x64.Idx) : IsReal (val_main_v39 (F := Ideal) x0 x1 x2 i) := by
  rw [v39_def, scatterAdd_ideal]
  exact IsReal.hostScatterAdd scatter_S100000x64_S1600000x1_S1600000x64_1_0_0_1 (val_main_v37 (F := Ideal))
    (val_main_v38 (F := Ideal) x1) (val_main_v36 (F := Ideal) x0 x1 x2) (fun i => ⟨0, v37_zero i⟩)
    (msg_real x0 x1 x2 h0 h2) i

/-- The self term `h * dinv²` is real. -/
theorem self_real (i : S100000x64.Idx) : IsReal (val_main_v43 (F := Ideal) x0 x1 x2 i) := by
  rw [val_main_v43_apply, Ideal.mulf_def, val_main_v42_apply, val_main_v41_apply, val_main_v40_apply, Ideal.mulf_def]
  exact (h_real x0 x2 h0 h2 i).mul ((dinv_real x1 _).mul (dinv_real x1 _))

include h3

/-- Every entry of `agg` is real. -/
theorem agg_isReal (i : S100000x64.Idx) : IsReal (val_main_v47 (F := Ideal) x0 x1 x2 x3 i) := by
  rw [val_main_v47_apply, Ideal.addf_def, val_main_v44_apply, Ideal.addf_def, val_main_v46_apply, val_main_v45_apply]
  exact ((scat_real x0 x1 x2 h0 h2 i).add (self_real x0 x1 x2 h0 h2 i)).add (h3 _)

end

/-- Every entry of `agg` (stage 47) is a real number when `x`, `W` and `b` are real-valued; the edge indices are
    arbitrary. -/
theorem agg_real (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal)) :
    ∀ i, ∃ r : ℝ, Cert.ReferenceIdeal.Read.val_main_v47 (F := Ideal) x0 x1 x2 x3 i = (r : EReal) :=
  fun i => agg_isReal x0 x1 x2 x3 h0 h2 h3 i

end Cert.ReferenceIdeal.AggReal

end
-- ==== Proof.Variance.lean ====
/- The variance of centred values from the first and second moments, over the extended reals.

   One program centres a column first and averages the squares of the centred values; the other averages
   the values and their squares and corrects. For real entries `A k`, a real scale `a`, `n = 100000` terms
   and `μ = (∑ A) / n`:

     (∑ (A k - a μ)²) / n = (∑ A k²) / n + μ² (a² - 2 a),

   because `∑ (A k - m)² = ∑ A k² - 2 m ∑ A + n m²` and `∑ A = n μ`. Every entry being a real, the
   extended-real sums, products and quotients by the nonzero real `n` are the coercions of the real ones. -/
import Idealize.ShloMosaic.PureOps.Ideal
import Idealize.ShloMosaic.PureOps.Ideal.Laws

noncomputable section

namespace Cert.Variance

open Idealize.ShloMosaic
open scoped BigOperators

/-- The pattern `0x47C35000` denotes the real `100000` (`= 1.52587890625 · 2^16`). -/
theorem ofBits_100000 : Ideal.ofBits .f32 0x47C35000#32 = ((100000 : ℝ) : EReal) := by
  simp [Ideal.ofBits, Ideal.ieee, -EReal.coe_mul]; norm_num

/-- The pattern `0x40000000` denotes the real `2`. -/
theorem ofBits_two : Ideal.ofBits .f32 0x40000000#32 = ((2 : ℝ) : EReal) := by
  simp [Ideal.ofBits, Ideal.ieee, -EReal.coe_mul]; norm_num

/-- The coercion of a finite real sum is the extended-real sum of the coercions. -/
theorem coe_sum {ι : Type} (s : Finset ι) (f : ι → ℝ) :
    ((∑ k ∈ s, f k : ℝ) : EReal) = ∑ k ∈ s, (f k : EReal) := by
  classical
  induction s using Finset.induction_on with
  | empty => simp
  | insert x s hx ih => rw [Finset.sum_insert hx, Finset.sum_insert hx, EReal.coe_add, ih]

/-- `∑ (A k - m)² = ∑ A k² - 2 m ∑ A + n m²` over the reals. -/
theorem sum_sq_sub (n : ℕ) (A : Fin n → ℝ) (m : ℝ) :
    ∑ k, (A k - m) * (A k - m) = (∑ k, A k * A k) - 2 * m * (∑ k, A k) + n * (m * m) := by
  have h : ∀ k, (A k - m) * (A k - m) = A k * A k - 2 * m * A k + m * m := fun k => by ring
  simp_rw [h]
  rw [Finset.sum_add_distrib, Finset.sum_sub_distrib, ← Finset.mul_sum, Finset.sum_const, Finset.card_univ,
    Fintype.card_fin, nsmul_eq_mul]

/-- The identity over the reals, with the quotient by `n = 100000` written as the product with `1 / n`. -/
theorem variance_real (A : Fin 100000 → ℝ) (a : ℝ) :
    (∑ k, (A k - a * ((∑ k, A k) * (1 / 100000))) * (A k - a * ((∑ k, A k) * (1 / 100000)))) * (1 / 100000)
      = (∑ k, A k * A k) * (1 / 100000)
        + ((∑ k, A k) * (1 / 100000)) * ((∑ k, A k) * (1 / 100000)) * (a * a - 2 * a) := by
  rw [sum_sq_sub]
  push_cast
  ring

/-- The law for any spelling `cc` of `100000` and `tt` of `2`. -/
theorem variance_moments_of_eq (A : Fin 100000 → EReal) (hA : ∀ k, ∃ r : ℝ, A k = (r : EReal)) (a : EReal)
    (ha : ∃ r : ℝ, a = (r : EReal)) (cc tt : EReal) (hc : cc = ((100000 : ℝ) : EReal))
    (ht : tt = ((2 : ℝ) : EReal)) :
    Ideal.div (∑ k, (A k - a * Ideal.div (∑ k, A k) cc) * (A k - a * Ideal.div (∑ k, A k) cc)) cc
      = Ideal.div (∑ k, A k * A k) cc
        + (Ideal.div (∑ k, A k) cc * Ideal.div (∑ k, A k) cc) * (a * a - tt * a) := by
  subst hc ht
  choose r hr using hA
  obtain ⟨s, rfl⟩ := ha
  obtain rfl : A = fun k => (r k : EReal) := funext hr
  have hn : (100000 : ℝ) ≠ 0 := by norm_num
  have hμ : Ideal.div (∑ k, ((r k : ℝ) : EReal)) ((100000 : ℝ) : EReal)
      = (((∑ k, r k) * (1 / 100000) : ℝ) : EReal) := by
    rw [Ideal.div_coe hn, ← coe_sum, ← EReal.coe_mul]
  have hQ : (∑ k, ((r k : ℝ) : EReal) * ((r k : ℝ) : EReal)) = ((∑ k, r k * r k : ℝ) : EReal) := by
    rw [coe_sum]
    exact Finset.sum_congr rfl fun k _ => (EReal.coe_mul _ _).symm
  have hV : ∀ M : ℝ, (∑ k, (((r k : ℝ) : EReal) - (s : EReal) * (M : EReal)) * (((r k : ℝ) : EReal) - (s : EReal) * (M : EReal)))
      = ((∑ k, (r k - s * M) * (r k - s * M) : ℝ) : EReal) := by
    intro M
    rw [coe_sum]
    refine Finset.sum_congr rfl fun k _ => ?_
    rw [EReal.coe_mul, EReal.coe_sub, EReal.coe_mul]
  dsimp only
  rw [hμ, hV, hQ, Ideal.div_coe hn, Ideal.div_coe hn, ← EReal.coe_mul, ← EReal.coe_mul, ← EReal.coe_mul,
    ← EReal.coe_mul, ← EReal.coe_mul, ← EReal.coe_sub, ← EReal.coe_mul, ← EReal.coe_add, variance_real]

/-- **The law that joins the two programs**: the mean of the squares of the values centred at `a μ` is the second
    moment plus `μ² (a² - 2 a)`, `μ` the mean; the divisor and the `2` as the float patterns the programs spell. -/
theorem variance_moments (A : Fin 100000 → EReal) (hA : ∀ k, ∃ r : ℝ, A k = (r : EReal)) (a : EReal)
    (ha : ∃ r : ℝ, a = (r : EReal)) :
    Ideal.div (∑ k, (A k - a * Ideal.div (∑ k, A k) (Ideal.ofBits .f32 0x47C35000#32))
          * (A k - a * Ideal.div (∑ k, A k) (Ideal.ofBits .f32 0x47C35000#32))) (Ideal.ofBits .f32 0x47C35000#32)
      = Ideal.div (∑ k, A k * A k) (Ideal.ofBits .f32 0x47C35000#32)
        + (Ideal.div (∑ k, A k) (Ideal.ofBits .f32 0x47C35000#32)
            * Ideal.div (∑ k, A k) (Ideal.ofBits .f32 0x47C35000#32))
          * (a * a - Ideal.ofBits .f32 0x40000000#32 * a) :=
  variance_moments_of_eq A hA a ha _ _ ofBits_100000 ofBits_two

/-- The same law with every sum written from its initial value, `0 + ∑`. -/
theorem variance_moments_zero_add (A : Fin 100000 → EReal) (hA : ∀ k, ∃ r : ℝ, A k = (r : EReal)) (a : EReal)
    (ha : ∃ r : ℝ, a = (r : EReal)) :
    Ideal.div (0 + ∑ k, (A k - a * Ideal.div (0 + ∑ k, A k) (Ideal.ofBits .f32 0x47C35000#32))
          * (A k - a * Ideal.div (0 + ∑ k, A k) (Ideal.ofBits .f32 0x47C35000#32)))
        (Ideal.ofBits .f32 0x47C35000#32)
      = Ideal.div (0 + ∑ k, A k * A k) (Ideal.ofBits .f32 0x47C35000#32)
        + (Ideal.div (0 + ∑ k, A k) (Ideal.ofBits .f32 0x47C35000#32)
            * Ideal.div (0 + ∑ k, A k) (Ideal.ofBits .f32 0x47C35000#32))
          * (a * a - Ideal.ofBits .f32 0x40000000#32 * a) := by
  simp only [zero_add]
  exact variance_moments A hA a ha

end Cert.Variance

end
-- ==== Proof.Bridge.lean ====
/-
  The pure facts that join the idealized kernel's region results to the reference's stages. The kernel multiplies a
  gathered row by the product of two gathered coefficients held as columns, where the reference multiplies the
  coefficients first and broadcasts; the kernel adds the self term and the bias read from a column and a row, where the
  reference broadcasts them; and the kernel normalises with the variance computed from the first two moments, where the
  reference centres first. The first two are a matter of reading reshapes and broadcasts at an index; the third is the
  identity `(∑ (A - a μ)²) / n = (∑ A²) / n + μ² (a² - 2 a)` for real entries.
-/
import proofs.«103033_j38603166057035_2_alg».proof.Proof.Region1
import proofs.«103033_j38603166057035_2_alg».proof.Proof.Region2Agg
import proofs.«103033_j38603166057035_2_alg».proof.Proof.Region3
import proofs.«103033_j38603166057035_2_alg».proof.Proof.HostTail
import proofs.«103033_j38603166057035_2_alg».proof.Proof.AggReal
import proofs.«103033_j38603166057035_2_alg».proof.Proof.Variance
import proofs.«103033_j38603166057035_2_alg».proof.Proof.Layout
import Idealize.ShloMosaic.Lib.ValueLayout

noncomputable section

open scoped BigOperators

namespace Cert.Bridge

open Cert.ReferenceIdeal Cert.ReferenceIdeal.Gen Cert.ReferenceIdeal.Facts Cert.ReferenceIdeal.Read Cert.HostTail
  Idealize.ShloMosaic Idealize.ShloMosaic.ValueIdx

/-! ## Reshapes and the region results read at an index -/

/-- A reshape `[a] → [a, 1]` read at `(i, u)` is the vector at `i`: both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The scaled messages at `(e, j)`: the gathered entry times the product of the two coefficients of edge `e`. -/
theorem scaled_at (hs : (⟨2, ![1600000, 64]⟩ : Shape).Idx → EReal) (ds dd : (⟨2, ![1600000, 1]⟩ : Shape).Idx → EReal)
    (e : Fin 1600000) (j : Fin 64) :
    Cert.KernelIdeal.Region1.scaled hs ds dd (ix2 e j)
      = hs (ix2 e j) * (ds (ix2 e (0 : Fin 1)) * dd (ix2 e (0 : Fin 1))) := rfl

/-- The aggregated features at `(r, j)`: the scattered sum, plus the self term, plus the bias. -/
theorem agg_at (sc h : (⟨2, ![100000, 64]⟩ : Shape).Idx → EReal) (d2 : (⟨2, ![100000, 1]⟩ : Shape).Idx → EReal)
    (b2 : (⟨2, ![1, 64]⟩ : Shape).Idx → EReal) (r : Fin 100000) (j : Fin 64) :
    Cert.KernelIdeal.Region2.agg sc h d2 b2 (ix2 r j)
      = sc (ix2 r j) + h (ix2 r j) * d2 (ix2 r (0 : Fin 1)) + b2 (ix2 (0 : Fin 1) j) := rfl

/-! ## Where the reference's broadcasts read their operands -/

theorem idx_v34_v35 (e : Fin 1600000) (j : Fin 64) : idx_main_v34 (idx_main_v35 (ix2 e j)) = ix1 e := by
  funext a; match a with | ⟨0, _⟩ => rfl

theorem idx_v41_v42 (r : Fin 100000) (j : Fin 64) : idx_main_v41 (idx_main_v42 (ix2 r j)) = ix1 r := by
  funext a; match a with | ⟨0, _⟩ => rfl

theorem idx_v45_v46 (r : Fin 100000) (j : Fin 64) : idx_main_v45 (idx_main_v46 (ix2 r j)) = ix1 j := by
  funext a; match a with | ⟨0, _⟩ => rfl

/-! ## The messages and the aggregated features -/

/-- The kernel's scaled messages are the reference's stage 36: the coefficients multiplied first, broadcast to a
    column and along the row, then multiplied into the gathered rows. -/
theorem scaled_eq (x0 : FVec Ideal S100000x64 .f32) (x1 : IVec S2x1600000 32) (x2 : FVec Ideal S64x64 .f32) (h : S1600000.ShapeCasts S1600000x1) :
    Cert.KernelIdeal.Region1.scaled (val_main_v33 (F := Ideal) x0 x1 x2) (shapeCast S1600000x1 (val_main_v18 (F := Ideal) x1) h) (shapeCast S1600000x1 (val_main_v25 (F := Ideal) x1) h) = val_main_v36 (F := Ideal) x0 x1 x2 := by
  funext i
  obtain ⟨e, j, rfl⟩ : ∃ (e : Fin 1600000) (j : Fin 64), i = ix2 e j := ⟨i 0, i 1, eq_ix2 i⟩
  rw [scaled_at, shapeCast_a_a1_apply, shapeCast_a_a1_apply, val_main_v36_apply, val_main_v35_apply,
    val_main_v34_apply, val_main_v26_apply, idx_v34_v35, Ideal.mulf_def, Ideal.mulf_def]

/-- The kernel's aggregated features are the reference's stage 47. -/
theorem agg_eq (x0 : FVec Ideal S100000x64 .f32) (x1 : IVec S2x1600000 32) (x2 : FVec Ideal S64x64 .f32) (x3 : FVec Ideal S64 .f32) (h1 : S100000.ShapeCasts S100000x1) (h2 : S64.ShapeCasts S1x64) :
    Cert.KernelIdeal.Region2.agg (val_main_v39 (F := Ideal) x0 x1 x2) (val_main_v4 (F := Ideal) x0 x2) (shapeCast S100000x1 (val_main_v40 (F := Ideal) x1) h1) (shapeCast S1x64 x3 h2) = val_main_v47 (F := Ideal) x0 x1 x2 x3 := by
  funext i
  obtain ⟨r, j, rfl⟩ : ∃ (r : Fin 100000) (j : Fin 64), i = ix2 r j := ⟨i 0, i 1, eq_ix2 i⟩
  rw [agg_at, shapeCast_a_a1_apply, shapeCast_a_1a_apply, val_main_v47_apply, val_main_v44_apply, val_main_v46_apply,
    val_main_v45_apply, val_main_v43_apply, val_main_v42_apply, val_main_v41_apply, idx_v41_v42, idx_v45_v46,
    Ideal.addf_def, Ideal.addf_def, Ideal.mulf_def]

/-! ## The kernel's finalisation, the column sums and the host statistics read at an index -/

/-- The column sums at column `j`. -/
theorem colSum_at (A : (⟨2, ![100000, 64]⟩ : Shape).Idx → EReal) (j : Fin 64) :
    Cert.KernelIdeal.Region2.colSum A (ix2 (0 : Fin 1) j) = ∑ r : Fin 100000, A (ix2 r j) := rfl

/-- The finalised entry at `(r, j)`: scale, centre, normalise, shift, clamp below at zero, add the input. -/
theorem finalize_at (A x : (⟨2, ![100000, 64]⟩ : Shape).Idx → EReal) (g be al mu var : (⟨2, ![1, 64]⟩ : Shape).Idx → EReal)
    (r : Fin 100000) (j : Fin 64) :
    Cert.KernelIdeal.Region3.finalize A x g be al mu var (ix2 r j)
      = max (g (ix2 (0 : Fin 1) j) * (A (ix2 r j) - al (ix2 (0 : Fin 1) j) * mu (ix2 (0 : Fin 1) j))
          * Ideal.rsqrt (var (ix2 (0 : Fin 1) j) + Ideal.ofBits .f32 0x3727C5AC#32)
          + be (ix2 (0 : Fin 1) j)) (Ideal.ofBits .f32 0x00000000#32) + x (ix2 r j) := rfl

theorem muOf_def (h : S1x64.ShapeCasts S64) (S1 : FVec Ideal S1x64 .f32) :
    muOf h S1 = Host.divf (shapeCast S64 S1 h) (val_main_v49 (F := Ideal)) := rfl

/-- The mean at column `j`: the column sum over the count. -/
theorem muOf_at (h : S1x64.ShapeCasts S64) (S1 : FVec Ideal S1x64 .f32) (j : Fin 64) :
    muOf h S1 (ix1 j) = Ideal.div (S1 (ix2 (0 : Fin 1) j)) (Ideal.ofBits .f32 0x47C35000#32) := by
  rw [muOf_def, hostDivf_apply, shapeCast_1a_a_apply, val_main_v49_apply, val_main_cst_9_apply, Ideal.ofBits_def]

/-- Twice a vector at `j`: the constant two times the entry. -/
theorem twice_at (a : FVec Ideal S64 .f32) (j : Fin 64) :
    twice a (ix1 j) = Ideal.ofBits .f32 0x40000000#32 * a (ix1 j) := by
  show broadcastInDim S64 ![] bcast_S_S64 (constant (F := Ideal) S_ .f32 0x40000000#32) (ix1 j) * a (ix1 j) = _
  rw [broadcastInDim_scalar_apply]
  rfl

theorem varOf_def (h : S1x64.ShapeCasts S64) (S1 S2 : FVec Ideal S1x64 .f32) (a : FVec Ideal S64 .f32) :
    varOf h S1 S2 a = addf (Host.divf (shapeCast S64 S2 h) (val_main_v57 (F := Ideal)))
      (mulf (mulf (muOf h S1) (muOf h S1)) (subf (mulf a a) (twice a))) := rfl

/-- The variance from the moments at column `j`. -/
theorem varOf_at (h : S1x64.ShapeCasts S64) (S1 S2 : FVec Ideal S1x64 .f32) (a : FVec Ideal S64 .f32) (j : Fin 64) :
    varOf h S1 S2 a (ix1 j) = Ideal.div (S2 (ix2 (0 : Fin 1) j)) (Ideal.ofBits .f32 0x47C35000#32)
      + (muOf h S1 (ix1 j) * muOf h S1 (ix1 j))
        * (a (ix1 j) * a (ix1 j) - Ideal.ofBits .f32 0x40000000#32 * a (ix1 j)) := by
  rw [varOf_def, addf_apply, mulf_apply, mulf_apply, subf_apply, mulf_apply, twice_at, hostDivf_apply,
    shapeCast_1a_a_apply, val_main_v57_apply, val_main_cst_11_apply, Ideal.ofBits_def]

/-! ## Where the reference's later broadcasts and sums read their operands -/

theorem idx_v52_v53 (r : Fin 100000) (j : Fin 64) : idx_main_v52 (idx_main_v53 (ix2 r j)) = ix1 j := by
  funext a; match a with | ⟨0, _⟩ => rfl

theorem idx_v59_v60 (r : Fin 100000) (j : Fin 64) : idx_main_v59 (idx_main_v60 (ix2 r j)) = ix1 j := by
  funext a; match a with | ⟨0, _⟩ => rfl

theorem idx_v65_v66 (r : Fin 100000) (j : Fin 64) : idx_main_v65 (idx_main_v66 (ix2 r j)) = ix1 j := by
  funext a; match a with | ⟨0, _⟩ => rfl

theorem idx_v68_v69 (r : Fin 100000) (j : Fin 64) : idx_main_v68 (idx_main_v69 (ix2 r j)) = ix1 j := by
  funext a; match a with | ⟨0, _⟩ => rfl

theorem idx_v48 (j : Fin 64) (k : Fin 100000) : idx_main_v48 (ix1 j) k = ix2 k j := by
  funext a; match a with | ⟨0, _⟩ => rfl | ⟨1, _⟩ => rfl

theorem idx_v56 (j : Fin 64) (k : Fin 100000) : idx_main_v56 (ix1 j) k = ix2 k j := by
  funext a; match a with | ⟨0, _⟩ => rfl | ⟨1, _⟩ => rfl

/-! ## The reference's statistics at a column -/

section
variable (x0 : FVec Ideal S100000x64 .f32) (x1 : IVec S2x1600000 32) (x2 : FVec Ideal S64x64 .f32)
  (x3 x6 : FVec Ideal S64 .f32)

/-- Stage 48 at column `j`: zero plus the column sum of the aggregated features. -/
theorem v48_at (j : Fin 64) :
    val_main_v48 (F := Ideal) x0 x1 x2 x3 (ix1 j) = 0 + ∑ k : Fin 100000, val_main_v47 (F := Ideal) x0 x1 x2 x3 (ix2 k j) := by
  rw [val_main_v48_apply, val_main_cst_8_apply, Ideal.ofBits_def, Ideal.ofBits_zero_f32]
  exact congrArg (0 + ·) (Finset.sum_congr rfl fun k _ => by rw [idx_v48])

/-- Stage 50, the reference's mean, at column `j`. -/
theorem v50_at (j : Fin 64) :
    val_main_v50 (F := Ideal) x0 x1 x2 x3 (ix1 j)
      = Ideal.div (0 + ∑ k : Fin 100000, val_main_v47 (F := Ideal) x0 x1 x2 x3 (ix2 k j)) (Ideal.ofBits .f32 0x47C35000#32) := by
  rw [val_main_v50_apply, Ideal.hostDivf_def, v48_at, val_main_v49_apply, val_main_cst_9_apply, Ideal.ofBits_def]

/-- Stage 54, the centred value, at `(r, j)`. -/
theorem v54_at (r : Fin 100000) (j : Fin 64) :
    val_main_v54 (F := Ideal) x0 x1 x2 x3 x6 (ix2 r j)
      = val_main_v47 (F := Ideal) x0 x1 x2 x3 (ix2 r j) - x6 (ix1 j) * val_main_v50 (F := Ideal) x0 x1 x2 x3 (ix1 j) := by
  rw [val_main_v54_apply, val_main_v53_apply, val_main_v52_apply, val_main_v51_apply, idx_v52_v53, Ideal.subf_def,
    Ideal.mulf_def]

/-- Stage 56 at column `j`: zero plus the column sum of the squared centred values. -/
theorem v56_at (j : Fin 64) :
    val_main_v56 (F := Ideal) x0 x1 x2 x3 x6 (ix1 j)
      = 0 + ∑ k : Fin 100000,
          (val_main_v47 (F := Ideal) x0 x1 x2 x3 (ix2 k j) - x6 (ix1 j) * val_main_v50 (F := Ideal) x0 x1 x2 x3 (ix1 j))
          * (val_main_v47 (F := Ideal) x0 x1 x2 x3 (ix2 k j) - x6 (ix1 j) * val_main_v50 (F := Ideal) x0 x1 x2 x3 (ix1 j)) := by
  rw [val_main_v56_apply, val_main_cst_10_apply, Ideal.ofBits_def, Ideal.ofBits_zero_f32]
  exact congrArg (0 + ·) (Finset.sum_congr rfl fun k _ => by
    rw [idx_v56, val_main_v55_apply, v54_at, Ideal.mulf_def])

/-- Stage 58, the reference's variance, at column `j`. -/
theorem v58_at (j : Fin 64) :
    val_main_v58 (F := Ideal) x0 x1 x2 x3 x6 (ix1 j)
      = Ideal.div (0 + ∑ k : Fin 100000,
          (val_main_v47 (F := Ideal) x0 x1 x2 x3 (ix2 k j) - x6 (ix1 j) * val_main_v50 (F := Ideal) x0 x1 x2 x3 (ix1 j))
          * (val_main_v47 (F := Ideal) x0 x1 x2 x3 (ix2 k j) - x6 (ix1 j) * val_main_v50 (F := Ideal) x0 x1 x2 x3 (ix1 j)))
        (Ideal.ofBits .f32 0x47C35000#32) := by
  rw [val_main_v58_apply, Ideal.hostDivf_def, v56_at, val_main_v57_apply, val_main_cst_11_apply, Ideal.ofBits_def]

/-- The two means agree: the reference's sum starts from zero. -/
theorem mu_eq (h3 : S1x64.ShapeCasts S64) (j : Fin 64) :
    val_main_v50 (F := Ideal) x0 x1 x2 x3 (ix1 j)
      = muOf h3 (Cert.KernelIdeal.Region2.colSum (val_main_v47 (F := Ideal) x0 x1 x2 x3)) (ix1 j) := by
  rw [v50_at, muOf_at, colSum_at, zero_add]

/-- The two variances agree: the mean of the squared centred values is the second moment plus
    `μ² (a² - 2 a)`, all entries being real. -/
theorem var_eq (h3 : S1x64.ShapeCasts S64)
    (r0 : ∀ i, ∃ r : ℝ, x0 i = (r : EReal)) (r2 : ∀ i, ∃ r : ℝ, x2 i = (r : EReal))
    (r3 : ∀ i, ∃ r : ℝ, x3 i = (r : EReal)) (r6 : ∀ i, ∃ r : ℝ, x6 i = (r : EReal)) (j : Fin 64) :
    val_main_v58 (F := Ideal) x0 x1 x2 x3 x6 (ix1 j)
      = varOf h3 (Cert.KernelIdeal.Region2.colSum (val_main_v47 (F := Ideal) x0 x1 x2 x3))
          (Cert.KernelIdeal.Region2.colSum (fun i => val_main_v47 (F := Ideal) x0 x1 x2 x3 i * val_main_v47 (F := Ideal) x0 x1 x2 x3 i))
          x6 (ix1 j) := by
  have key := Cert.Variance.variance_moments_zero_add
    (fun k : Fin 100000 => val_main_v47 (F := Ideal) x0 x1 x2 x3 (ix2 k j))
    (fun k => Cert.ReferenceIdeal.AggReal.agg_real x0 x1 x2 x3 r0 r2 r3 (ix2 k j)) (x6 (ix1 j)) (r6 (ix1 j))
  rw [v58_at, v50_at, varOf_at, muOf_at, colSum_at, colSum_at]
  simp only [zero_add] at key ⊢
  exact key

end

/-! ## The finalised output -/

/-- The kernel's finalisation of the aggregated features, with the statistics the host derives from the column sums
    and the column sums of squares, is the reference's output (stage 72): the means agree, the variances agree by
    the moment identity, and the rest is the same expression read at an index. -/
theorem final_eq (x0 : FVec Ideal S100000x64 .f32) (x1 : IVec S2x1600000 32) (x2 : FVec Ideal S64x64 .f32) (x3 x4 x5 x6 : FVec Ideal S64 .f32) (h2 : S64.ShapeCasts S1x64) (h3 : S1x64.ShapeCasts S64)
    (r0 : ∀ i, ∃ r : ℝ, x0 i = (r : EReal)) (r2 : ∀ i, ∃ r : ℝ, x2 i = (r : EReal)) (r3 : ∀ i, ∃ r : ℝ, x3 i = (r : EReal)) (r6 : ∀ i, ∃ r : ℝ, x6 i = (r : EReal)) :
    Cert.KernelIdeal.Region3.finalize (val_main_v47 (F := Ideal) x0 x1 x2 x3) x0 (shapeCast S1x64 x4 h2) (shapeCast S1x64 x5 h2) (shapeCast S1x64 x6 h2)
      (shapeCast S1x64 (muOf h3 (Cert.KernelIdeal.Region2.colSum (val_main_v47 (F := Ideal) x0 x1 x2 x3))) h2)
      (shapeCast S1x64 (varOf h3 (Cert.KernelIdeal.Region2.colSum (val_main_v47 (F := Ideal) x0 x1 x2 x3)) (Cert.KernelIdeal.Region2.colSum (fun i => val_main_v47 (F := Ideal) x0 x1 x2 x3 i * val_main_v47 (F := Ideal) x0 x1 x2 x3 i)) x6) h2)
    = val_main_v72 (F := Ideal) x0 x1 x2 x3 x4 x5 x6 := by
  funext i
  obtain ⟨r, j, rfl⟩ : ∃ (r : Fin 100000) (j : Fin 64), i = ix2 r j := ⟨i 0, i 1, eq_ix2 i⟩
  rw [finalize_at, shapeCast_a_1a_apply, shapeCast_a_1a_apply, shapeCast_a_1a_apply, shapeCast_a_1a_apply,
    shapeCast_a_1a_apply, ← mu_eq x0 x1 x2 x3 h3 j, ← var_eq x0 x1 x2 x3 x6 h3 r0 r2 r3 r6 j,
    val_main_v72_apply, val_main_v71_apply, val_main_v70_apply, val_main_v69_apply, val_main_v68_apply,
    val_main_v67_apply, val_main_v66_apply, val_main_v65_apply, val_main_v64_apply, val_main_v63_apply,
    val_main_v62_apply, val_main_cst_12_apply, val_main_v61_apply, val_main_v60_apply, val_main_v59_apply, v54_at,
    val_main_call0_v0_apply, val_main_call0_cst_apply, idx_v68_v69, idx_v65_v66, idx_v59_v60]
  simp only [Ideal.addf_def, Ideal.mulf_def, Ideal.maximumf_def, Ideal.hostUnary_rsqrt_def, Ideal.ofBits_def]

end Cert.Bridge

end
-- ==== Proof.Final.lean ====
/-
  The idealized kernel's result buffer is the reference's last stage of the launch arguments, when the float
  arguments are real-valued: the boundary facts composed, the scaled messages, the aggregate and the normalised array
  each identified with the reference's stage, the last one through the law that the variance of the centred values is
  recovered from the first two moments.
-/
import proofs.«103033_j38603166057035_2_alg».proof.Proof.Glue4
import proofs.«103033_j38603166057035_2_alg».proof.Proof.Region2Acc
import proofs.«103033_j38603166057035_2_alg».proof.Proof.Bridge

set_option maxRecDepth 16384

noncomputable section

namespace Cert.KernelIdeal.Glue

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-- The message array is the reference's scaled messages. -/
theorem W4_msg (c : Dev nD) :
    W4 m ρ c (Proc.devRef .tc main_v35) = Cert.ReferenceIdeal.Read.val_main_v36 (F := Ideal) (x0 m c) (x1 m c) (x2 m c) :=
  (W4_v35 m ρ c).trans (Cert.Bridge.scaled_eq _ _ _ _)

/-- Its scatter-add into the nodes is the reference's. -/
theorem W5_scat (c : Dev nD) :
    W5 m ρ c (Proc.devRef .tc main_v38) = Cert.ReferenceIdeal.Read.val_main_v39 (F := Ideal) (x0 m c) (x1 m c) (x2 m c) :=
  W5_v38 m ρ c _ (W4_msg m ρ c)

/-- The aggregate the statistics region finds its inputs to make is the reference's. -/
theorem agg_in (c : Dev nD) :
    Region2.agg (W5 m ρ c (Proc.devRef .tc main_v38)) (W5 m ρ c (Proc.devRef .tc main_v4))
        (W5 m ρ c (Proc.devRef .tc main_v40)) (W5 m ρ c (Proc.devRef .tc main_v41))
      = Cert.ReferenceIdeal.Read.val_main_v47 (F := Ideal) (x0 m c) (x1 m c) (x2 m c) (x3 m c) := by
  rw [W5_scat, W5_v4, W5_v40, W5_v41]
  exact Cert.Bridge.agg_eq _ _ _ _ _ _

theorem W6_agg (c : Dev nD) :
    W6 m ρ c (Proc.devRef .tc main_v42_0) = Cert.ReferenceIdeal.Read.val_main_v47 (F := Ideal) (x0 m c) (x1 m c) (x2 m c) (x3 m c) :=
  (W6_v42_0 m ρ c).trans (agg_in m ρ c)

/-- The first accumulated row: the aggregate's column sums. -/
theorem W6_S1 (c : Dev nD) :
    W6 m ρ c (Proc.devRef .tc main_v42_1) = Region2.colSum (Cert.ReferenceIdeal.Read.val_main_v47 (F := Ideal) (x0 m c) (x1 m c) (x2 m c) (x3 m c)) := by
  refine (W6_arr m ρ c 5).trans ((Region2.arr5 (V5 m ρ) c).trans ?_)
  exact congrArg Region2.colSum (agg_in m ρ c)

/-- The second accumulated row: the column sums of the aggregate's squares. -/
theorem W6_S2 (c : Dev nD) :
    W6 m ρ c (Proc.devRef .tc main_v42_2)
      = Region2.colSum (fun i => Cert.ReferenceIdeal.Read.val_main_v47 (F := Ideal) (x0 m c) (x1 m c) (x2 m c) (x3 m c) i * Cert.ReferenceIdeal.Read.val_main_v47 (F := Ideal) (x0 m c) (x1 m c) (x2 m c) (x3 m c) i) := by
  refine (W6_arr m ρ c 6).trans ((Region2.arr6 (V5 m ρ) c).trans ?_)
  exact congrArg (fun A : S100000x64.Idx → EReal => Region2.colSum (fun i => A i * A i)) (agg_in m ρ c)

/-- THE RESULT: with real-valued float arguments, the result buffer holds the reference's last stage. -/
theorem result_eq (c : Dev nD)
    (r0 : ∀ i, ∃ r : ℝ, x0 m c i = (r : EReal)) (r2 : ∀ i, ∃ r : ℝ, x2 m c i = (r : EReal))
    (r3 : ∀ i, ∃ r : ℝ, x3 m c i = (r : EReal)) (r6 : ∀ i, ∃ r : ℝ, x6 m c i = (r : EReal)) :
    W8 m ρ c (Proc.devRef .tc main_v61)
      = Cert.ReferenceIdeal.Read.val_main_v72 (F := Ideal) (x0 m c) (x1 m c) (x2 m c) (x3 m c) (x4 m c) (x5 m c) (x6 m c) := by
  rw [W8_v61, W7_v42_0, W6_agg, W7_arg0, W7_v56, W7_v57, W7_v58, W7_v59 m ρ c _ (W6_S1 m ρ c),
    W7_v60 m ρ c _ _ (W6_S1 m ρ c) (W6_S2 m ρ c)]
  exact Cert.Bridge.final_eq _ _ _ _ _ _ _ _ _ r0 r2 r3 r6

end Cert.KernelIdeal.Glue

end
-- ==== Proof.lean ====
/-
  A graph-convolution layer with graph normalisation, a rectifier and a residual: a kernel of four regions among host
  code against its plain reference, at the ideal instance (floats are extended reals, operations exact).

  Both programs compute, per node `r` and column `j`, `h = x W`, the degree coefficient `d = (deg + 1)^(-1/2)`, the
  aggregate `A (r, j) = Σ_{e → r} h (src e, j) d (src e) d (dst e) + h (r, j) d (r)² + b (j)`, the mean
  `mu (j) = Σ_r A (r, j) / N`, and `max (g (j) (A (r, j) − a (j) mu (j)) rsqrt (var (j) + ε) + β (j)) 0 + x (r, j)`.
  They differ in one place: the reference takes `var (j) = Σ_r (A (r, j) − a (j) mu (j))² / N`, the kernel
  `Σ_r A (r, j)² / N + mu (j)² (a (j)² − 2 a (j))` from two rows it accumulates block by block over the grid. The
  two agree when every `A (r, j)` and `a (j)` is a real number — expand the square and use `Σ_r 1 = N` — which the
  precondition gives: real inputs make `h` real, the degree is a count plus one so its inverse square root is real,
  and sums and products of reals are real. Everything else is the same expression on both sides, read through
  different tilings and layouts (a matrix product into a zero accumulator against a `dot_general`, block sums against
  one whole sum, reshapes against broadcasts).

  The three frames are the generated ones (the reference's is its generated run with the result dropped); the ideal
  pass rewrote nothing, so `preserves` is `True`.
-/
import proofs.«103033_j38603166057035_2_alg».proof.Defs
import proofs.«103033_j38603166057035_2_alg».proof.Proof.Gen.Kernel
import proofs.«103033_j38603166057035_2_alg».proof.Proof.Gen.Kernel.Skeleton
import proofs.«103033_j38603166057035_2_alg».proof.Proof.Gen.Kernel.Launch
import proofs.«103033_j38603166057035_2_alg».proof.Proof.Gen.Kernel.Points
import proofs.«103033_j38603166057035_2_alg».proof.Proof.Gen.Kernel.Frame
import proofs.«103033_j38603166057035_2_alg».proof.Proof.Gen.KernelIdeal
import proofs.«103033_j38603166057035_2_alg».proof.Proof.Gen.KernelIdeal.Skeleton
import proofs.«103033_j38603166057035_2_alg».proof.Proof.Gen.KernelIdeal.Launch
import proofs.«103033_j38603166057035_2_alg».proof.Proof.Gen.KernelIdeal.Points
import proofs.«103033_j38603166057035_2_alg».proof.Proof.Gen.KernelIdeal.Frame
import proofs.«103033_j38603166057035_2_alg».proof.Proof.Gen.ReferenceIdeal
import proofs.«103033_j38603166057035_2_alg».proof.Proof.Gen.ReferenceIdeal.Run
import proofs.«103033_j38603166057035_2_alg».proof.Proof.Gen.ReferenceIdeal.Read
import proofs.«103033_j38603166057035_2_alg».proof.Proof.Gen.Pre_finite_inputs
import proofs.«103033_j38603166057035_2_alg».proof.Proof.NamedRun
import proofs.«103033_j38603166057035_2_alg».proof.Proof.PreReal
import proofs.«103033_j38603166057035_2_alg».proof.Proof.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's last stage of the (agreeing) arguments. -/
theorem algebraic : Cert.algebraic_KernelIdeal_ReferenceIdeal := by
  intro m ρ m' ρ' hpre hagree
  refine ⟨fun c => Cert.ReferenceIdeal.Read.val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.NamedRun.run (F := Ideal) m ρ)
    obtain ⟨r0, r2, r3, -, -, r6⟩ := Cert.PreReal.inputs_real _ _ _ _ _ _ _ (hpre c)
    exact Cert.KernelIdeal.Glue.result_eq m ρ c r0 r2 r3 r6
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v72_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
